-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x2 : Shape := ⟨3, ![4096, 128, 2]⟩
abbrev S128x64 : Shape := ⟨2, ![128, 64]⟩
abbrev S128x64x2 : Shape := ⟨3, ![128, 64, 2]⟩
abbrev S128x64x2x2 : Shape := ⟨4, ![128, 64, 2, 2]⟩
abbrev S128x2 : Shape := ⟨2, ![128, 2]⟩
abbrev S_ : Shape := ⟨0, ![]⟩

class Facts : Prop where
  bcast_S_S4096x128x2 : S_.BroadcastsInDim S4096x128x2 (![] : Fin 0 → Fin S4096x128x2.rank)
  reducesTo_S4096x128x2_S_d0_1_2 : S4096x128x2.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_
  bcast_S_S128x64x2 : S_.BroadcastsInDim S128x64x2 (![] : Fin 0 → Fin S128x64x2.rank)
  reducesTo_S128x64x2_S_d0_1_2 : S128x64x2.ReducesTo [0, 1, 2] S_
  bcast_S_S128x64x2x2 : S_.BroadcastsInDim S128x64x2x2 (![] : Fin 0 → Fin S128x64x2x2.rank)
  reducesTo_S128x64x2x2_S_d0_1_2_3 : S128x64x2x2.ReducesTo [0, 1, 2, 3] S_
  bcast_S_S128x2 : S_.BroadcastsInDim S128x2 (![] : Fin 0 → Fin S128x2.rank)
  reducesTo_S128x2_S_d0_1 : S128x2.ReducesTo [0, 1] S_

variable [Facts]

def fn_part1 {F : FTy → Type} [FloatOps F] (main_arg4 : FVec F S128x2 .f32) (main_v13 : IVec S_ 1) (main_v16 : IVec S128x64x2x2 1) : IVec S_ 1 :=
  let main_c_5 : IVec S_ 1 := constantI S_ 1 1#1
  let main_v17 : IVec S_ 1 := (fun x v => Host.reduce IntOp.andi x v reducesTo_S128x64x2x2_S_d0_1_2_3 h_S_) main_v16 main_c_5
  let main_v18 : IVec S_ 1 := andi main_v13 main_v17
  let main_v19 : FVec F S128x2 .f32 := Host.absf main_arg4
  let main_cst_6 : FVec F S_ .f32 := constant S_ .f32 0x7F800000#32
  let main_v20 : FVec F S128x2 .f32 := broadcastInDim S128x2 ![] bcast_S_S128x2 main_cst_6
  let main_v21 : IVec S128x2 1 := cmpf .olt main_v19 main_v20
  let main_c_7 : IVec S_ 1 := constantI S_ 1 1#1
  let main_v22 : IVec S_ 1 := (fun x v => Host.reduce IntOp.andi x v reducesTo_S128x2_S_d0_1 h_S_) main_v21 main_c_7
  let main_v23 : IVec S_ 1 := andi main_v18 main_v22
  main_v23

def fn {F : FTy → Type} [FloatOps F] (main_arg0 : FVec F S4096x128x2 .f32) (main_arg1 : FVec F S128x64 .f32) (main_arg2 : FVec F S128x64x2 .f32) (main_arg3 : FVec F S128x64x2x2 .f32) (main_arg4 : FVec F S128x2 .f32) : IVec S_ 1 :=
  let main_v0 : FVec F S4096x128x2 .f32 := Host.absf main_arg0
  let main_cst : FVec F S_ .f32 := constant S_ .f32 0x7F800000#32
  let main_v1 : FVec F S4096x128x2 .f32 := broadcastInDim S4096x128x2 ![] bcast_S_S4096x128x2 main_cst
  let main_v2 : IVec S4096x128x2 1 := cmpf .olt main_v0 main_v1
  let main_c : IVec S_ 1 := constantI S_ 1 1#1
  let main_v3 : IVec S_ 1 := (fun x v => Host.reduce IntOp.andi x v reducesTo_S4096x128x2_S_d0_1_2 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64x2 .f32 := Host.absf main_arg2
  let main_cst_2 : FVec F S_ .f32 := constant S_ .f32 0x7F800000#32
  let main_v10 : FVec F S128x64x2 .f32 := broadcastInDim S128x64x2 ![] bcast_S_S128x64x2 main_cst_2
  let main_v11 : IVec S128x64x2 1 := cmpf .olt main_v9 main_v10
  let main_c_3 : IVec S_ 1 := constantI S_ 1 1#1
  let main_v12 : IVec S_ 1 := (fun x v => Host.reduce IntOp.andi x v reducesTo_S128x64x2_S_d0_1_2 h_S_) main_v11 main_c_3
  let main_v13 : IVec S_ 1 := andi main_v8 main_v12
  let main_v14 : FVec F S128x64x2x2 .f32 := Host.absf main_arg3
  let main_cst_4 : FVec F S_ .f32 := constant S_ .f32 0x7F800000#32
  let main_v15 : FVec F S128x64x2x2 .f32 := broadcastInDim S128x64x2x2 ![] bcast_S_S128x64x2x2 main_cst_4
  let main_v16 : IVec S128x64x2x2 1 := cmpf .olt main_v14 main_v15
  fn_part1 (F := F) main_arg4 main_v13 main_v16
-- ==== Kernel.lean ====
abbrev S4096x128x2 : Shape := ⟨3, ![4096, 128, 2]⟩
abbrev S128x64 : Shape := ⟨2, ![128, 64]⟩
abbrev S128x64x2 : Shape := ⟨3, ![128, 64, 2]⟩
abbrev S128x64x2x2 : Shape := ⟨4, ![128, 64, 2, 2]⟩
abbrev S128x2 : Shape := ⟨2, ![128, 2]⟩
abbrev S4096x128x1 : Shape := ⟨3, ![4096, 128, 1]⟩
abbrev S4096x128 : Shape := ⟨2, ![4096, 128]⟩
abbrev S128x64x1 : Shape := ⟨3, ![128, 64, 1]⟩
abbrev S128x64x1x1 : Shape := ⟨4, ![128, 64, 1, 1]⟩
abbrev S128x1 : Shape := ⟨2, ![128, 1]⟩
abbrev S128 : Shape := ⟨1, ![128]⟩
abbrev S1x128 : Shape := ⟨2, ![1, 128]⟩
abbrev S32x128 : Shape := ⟨2, ![32, 128]⟩
abbrev S32x128x1 : Shape := ⟨3, ![32, 128, 1]⟩
abbrev S1x128x64 : Shape := ⟨3, ![1, 128, 64]⟩
abbrev S32x128x64 : Shape := ⟨3, ![32, 128, 64]⟩
abbrev S4096x256 : Shape := ⟨2, ![4096, 256]⟩
abbrev S_ : Shape := ⟨0, ![]⟩

abbrev nBuf : Space → Nat
  | .hbm => 39
  | .vmem => 19
  | .smem => 0
  | _ => 0

abbrev bufTy : (tb : Table) → Fin (tcTables nBuf tb) → BufTy
  | .hbm, ⟨0, _⟩ => ⟨S4096x128x2, .f32⟩
  | .hbm, ⟨1, _⟩ => ⟨S128x64, .f32⟩
  | .hbm, ⟨2, _⟩ => ⟨S128x64x2, .f32⟩
  | .hbm, ⟨3, _⟩ => ⟨S128x64x2x2, .f32⟩
  | .hbm, ⟨4, _⟩ => ⟨S128x2, .f32⟩
  | .hbm, ⟨5, _⟩ => ⟨S4096x128x1, .f32⟩
  | .hbm, ⟨6, _⟩ => ⟨S4096x128, .f32⟩
  | .hbm, ⟨7, _⟩ => ⟨S4096x128x1, .f32⟩
  | .hbm, ⟨8, _⟩ => ⟨S4096x128, .f32⟩
  | .hbm, ⟨9, _⟩ => ⟨S128x64x1, .f32⟩
  | .hbm, ⟨10, _⟩ => ⟨S128x64, .f32⟩
  | .hbm, ⟨11, _⟩ => ⟨S128x64x1, .f32⟩
  | .hbm, ⟨12, _⟩ => ⟨S128x64, .f32⟩
  | .hbm, ⟨13, _⟩ => ⟨S128x64x1x1, .f32⟩
  | .hbm, ⟨14, _⟩ => ⟨S128x64, .f32⟩
  | .hbm, ⟨15, _⟩ => ⟨S128x64x1x1, .f32⟩
  | .hbm, ⟨16, _⟩ => ⟨S128x64, .f32⟩
  | .hbm, ⟨17, _⟩ => ⟨S128x64x1x1, .f32⟩
  | .hbm, ⟨18, _⟩ => ⟨S128x64, .f32⟩
  | .hbm, ⟨19, _⟩ => ⟨S128x64x1x1, .f32⟩
  | .hbm, ⟨20, _⟩ => ⟨S128x64, .f32⟩
  | .hbm, ⟨21, _⟩ => ⟨S128x1, .f32⟩
  | .hbm, ⟨22, _⟩ => ⟨S128, .f32⟩
  | .hbm, ⟨23, _⟩ => ⟨S1x128, .f32⟩
  | .hbm, ⟨24, _⟩ => ⟨S128x1, .f32⟩
  | .hbm, ⟨25, _⟩ => ⟨S128, .f32⟩
  | .hbm, ⟨26, _⟩ => ⟨S1x128, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S4096x128x2, .f32⟩
  | .hbm, ⟨31, _⟩ => ⟨S4096x256, .f32⟩
  | .hbm, ⟨32, _⟩ => ⟨S4096x128x1, .f32⟩
  | .hbm, ⟨33, _⟩ => ⟨S4096x128x1, .f32⟩
  | .hbm, ⟨34, _⟩ => ⟨S4096x128x2, .f32⟩
  | .hbm, ⟨35, _⟩ => ⟨S_, .f32⟩
  | .hbm, ⟨36, _⟩ => ⟨S4096x128x2, .f32⟩
  | .hbm, ⟨37, _⟩ => ⟨S4096x128x2, .f32⟩
  | .hbm, ⟨38, _⟩ => ⟨S4096x256, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | .local _ .vmem, ⟨10, _⟩ => ⟨S128x64, .f32⟩
  | .local _ .vmem, ⟨11, _⟩ => ⟨S1x128, .f32⟩
  | .local _ .vmem, ⟨12, _⟩ => ⟨S1x128, .f32⟩
  | .local _ .vmem, ⟨13, _⟩ => ⟨S32x128, .f32⟩
  | .local _ .vmem, ⟨14, _⟩ => ⟨S32x128, .f32⟩
  | .local _ .vmem, ⟨15, _⟩ => ⟨S32x128, .f32⟩
  | .local _ .vmem, ⟨16, _⟩ => ⟨S32x128, .f32⟩
  | .local _ .vmem, ⟨17, _⟩ => ⟨S32x128, .f32⟩
  | .local _ .vmem, ⟨18, _⟩ => ⟨S32x128, .f32⟩
  | _, _ => ⟨S4096x128x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev main_v22_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S4096x128x2_S4096x128x1_0_0_0 : S4096x128x2.Slices ![0, 0, 0] S4096x128x1
  shapeCasts_S4096x128x1_S4096x128 : S4096x128x1.ShapeCasts S4096x128
  slices_S4096x128x2_S4096x128x1_0_0_1 : S4096x128x2.Slices ![0, 0, 1] S4096x128x1
  slices_S128x64x2_S128x64x1_0_0_0 : S128x64x2.Slices ![0, 0, 0] S128x64x1
  shapeCasts_S128x64x1_S128x64 : S128x64x1.ShapeCasts S128x64
  slices_S128x64x2_S128x64x1_0_0_1 : S128x64x2.Slices ![0, 0, 1] S128x64x1
  slices_S128x64x2x2_S128x64x1x1_0_0_0_0 : S128x64x2x2.Slices ![0, 0, 0, 0] S128x64x1x1
  shapeCasts_S128x64x1x1_S128x64 : S128x64x1x1.ShapeCasts S128x64
  slices_S128x64x2x2_S128x64x1x1_0_0_0_1 : S128x64x2x2.Slices ![0, 0, 0, 1] S128x64x1x1
  slices_S128x64x2x2_S128x64x1x1_0_0_1_0 : S128x64x2x2.Slices ![0, 0, 1, 0] S128x64x1x1
  slices_S128x64x2x2_S128x64x1x1_0_0_1_1 : S128x64x2x2.Slices ![0, 0, 1, 1] S128x64x1x1
  slices_S128x2_S128x1_0_0 : S128x2.Slices ![0, 0] S128x1
  shapeCasts_S128x1_S128 : S128x1.ShapeCasts S128
  bcast_S128_S1x128_1 : S128.BroadcastsInDim S1x128 (![1] : Fin 1 → Fin S1x128.rank)
  slices_S128x2_S128x1_0_1 : S128x2.Slices ![0, 1] S128x1
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S32x128_S32x128x1 : S32x128.ShapeCasts S32x128x1
  shapeCasts_S128x64_S1x128x64 : S128x64.ShapeCasts S1x128x64
  broadcasts_S32x128x1_S32x128x64 : S32x128x1.Broadcasts S32x128x64
  broadcasts_S1x128x64_S32x128x64 : S1x128x64.Broadcasts S32x128x64
  reduces_S32x128x64_S32x128 : S32x128x64.Reduces [2] S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  bcast_S4096x128_S4096x128x2_0_1 : S4096x128.BroadcastsInDim S4096x128x2 (![0, 1] : Fin 2 → Fin S4096x128x2.rank)
  shapeCasts_S4096x128x2_S4096x256 : S4096x128x2.ShapeCasts S4096x256
  bcast_S4096x128_S4096x128x1_0_1 : S4096x128.BroadcastsInDim S4096x128x1 (![0, 1] : Fin 2 → Fin S4096x128x1.rank)
  concatenates_S4096x128x1_S4096x128x1_S4096x128x2_d2 : Shape.Concatenates [S4096x128x1, S4096x128x1] S4096x128x2 2
  bcast_S_S4096x128x2 : S_.BroadcastsInDim S4096x128x2 (![] : Fin 0 → Fin S4096x128x2.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S4096x128.size a
  hwx0_0 : ∀ i : grid0.Coords, EltTy.bits .f32 = 32 ∨ (Rect.block (s := S4096x128) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S4096x128.size a
  hwx0_1 : ∀ i : grid0.Coords, EltTy.bits .f32 = 32 ∨ (Rect.block (s := S4096x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x128.size a ≤ S4096x128.size a
  hwx0_11 : ∀ i : grid0.Coords, EltTy.bits .f32 = 32 ∨ (Rect.block (s := S4096x128) S32x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S32x128.size a ≤ S4096x128.size a
  hwx0_12 : ∀ i : grid0.Coords, EltTy.bits .f32 = 32 ∨ (Rect.block (s := S4096x128) S32x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S32x128.size a ≤ S4096x128.size a
  hwx0_13 : ∀ i : grid0.Coords, EltTy.bits .f32 = 32 ∨ (Rect.block (s := S4096x128) S32x128.size (cc0_transform_13 i) (hinb0_13 i)).WholeWords (EltTy.packing .f32)

variable [Facts₀]

abbrev win0_0 : Pipeline.Window sig grid0 :=
  Pipeline.Window.ofSpec (Memref.whole main_v1) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22_0) S32x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v22_1) S32x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v22_2) S32x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4096x128x2 : Shape := ⟨3, ![4096, 128, 2]⟩
abbrev S128x64 : Shape := ⟨2, ![128, 64]⟩
abbrev S128x64x2 : Shape := ⟨3, ![128, 64, 2]⟩
abbrev S128x64x2x2 : Shape := ⟨4, ![128, 64, 2, 2]⟩
abbrev S128x2 : Shape := ⟨2, ![128, 2]⟩
abbrev S128x64x1x1 : Shape := ⟨4, ![128, 64, 1, 1]⟩
abbrev S4096x128x1x2 : Shape := ⟨4, ![4096, 128, 1, 2]⟩
abbrev S1x128x64x2 : Shape := ⟨4, ![1, 128, 64, 2]⟩
abbrev S4096x128x64x2 : Shape := ⟨4, ![4096, 128, 64, 2]⟩
abbrev S4096x128x64x1 : Shape := ⟨4, ![4096, 128, 64, 1]⟩
abbrev S4096x128x64 : Shape := ⟨3, ![4096, 128, 64]⟩
abbrev S1x128x64 : Shape := ⟨3, ![1, 128, 64]⟩
abbrev S_ : Shape := ⟨0, ![]⟩
abbrev S4096x128 : Shape := ⟨2, ![4096, 128]⟩
abbrev S4096x128x1 : Shape := ⟨3, ![4096, 128, 1]⟩
abbrev S4096x256 : Shape := ⟨2, ![4096, 256]⟩
abbrev S1x128x2 : Shape := ⟨3, ![1, 128, 2]⟩

abbrev nBuf : Space → Nat
  | .hbm => 115
  | .vmem => 0
  | .smem => 0
  | _ => 0

abbrev bufTy : (tb : Table) → Fin (tcTables nBuf tb) → BufTy
  | .hbm, ⟨0, _⟩ => ⟨S4096x128x2, .f32⟩
  | .hbm, ⟨1, _⟩ => ⟨S128x64, .f32⟩
  | .hbm, ⟨2, _⟩ => ⟨S128x64x2, .f32⟩
  | .hbm, ⟨3, _⟩ => ⟨S128x64x2x2, .f32⟩
  | .hbm, ⟨4, _⟩ => ⟨S128x2, .f32⟩
  | .hbm, ⟨5, _⟩ => ⟨S128x64x1x1, .f32⟩
  | .hbm, ⟨6, _⟩ => ⟨S128x64, .f32⟩
  | .hbm, ⟨7, _⟩ => ⟨S128x64x1x1, .f32⟩
  | .hbm, ⟨8, _⟩ => ⟨S128x64, .f32⟩
  | .hbm, ⟨9, _⟩ => ⟨S128x64x1x1, .f32⟩
  | .hbm, ⟨10, _⟩ => ⟨S128x64, .f32⟩
  | .hbm, ⟨11, _⟩ => ⟨S128x64x1x1, .f32⟩
  | .hbm, ⟨12, _⟩ => ⟨S128x64, .f32⟩
  | .hbm, ⟨13, _⟩ => ⟨S128x64, .f32⟩
  | .hbm, ⟨14, _⟩ => ⟨S128x64, .f32⟩
  | .hbm, ⟨15, _⟩ => ⟨S128x64, .f32⟩
  | .hbm, ⟨16, _⟩ => ⟨S128x64, .f32⟩
  | .hbm, ⟨17, _⟩ => ⟨S128x64, .f32⟩
  | .hbm, ⟨18, _⟩ => ⟨S128x64, .f32⟩
  | .hbm, ⟨19, _⟩ => ⟨S128x64, .f32⟩
  | .hbm, ⟨20, _⟩ => ⟨S128x64, .f32⟩
  | .hbm, ⟨21, _⟩ => ⟨S128x64, .f32⟩
  | .hbm, ⟨22, _⟩ => ⟨S4096x128x1x2, .f32⟩
  | .hbm, ⟨23, _⟩ => ⟨S1x128x64x2, .f32⟩
  | .hbm, ⟨24, _⟩ => ⟨S4096x128x64x2, .f32⟩
  | .hbm, ⟨25, _⟩ => ⟨S4096x128x64x2, .f32⟩
  | .hbm, ⟨26, _⟩ => ⟨S4096x128x64x2, .f32⟩
  | .hbm, ⟨27, _⟩ => ⟨S4096x128x64x1, .f32⟩
  | .hbm, ⟨28, _⟩ => ⟨S4096x128x64, .f32⟩
  | .hbm, ⟨29, _⟩ => ⟨S4096x128x64x1, .f32⟩
  | .hbm, ⟨30, _⟩ => ⟨S4096x128x64, .f32⟩
  | .hbm, ⟨31, _⟩ => ⟨S1x128x64, .f32⟩
  | .hbm, ⟨32, _⟩ => ⟨S4096x128x64, .f32⟩
  | .hbm, ⟨33, _⟩ => ⟨S4096x128x64, .f32⟩
  | .hbm, ⟨34, _⟩ => ⟨S1x128x64, .f32⟩
  | .hbm, ⟨35, _⟩ => ⟨S4096x128x64, .f32⟩
  | .hbm, ⟨36, _⟩ => ⟨S4096x128x64, .f32⟩
  | .hbm, ⟨37, _⟩ => ⟨S4096x128x64, .f32⟩
  | .hbm, ⟨38, _⟩ => ⟨S1x128x64, .f32⟩
  | .hbm, ⟨39, _⟩ => ⟨S4096x128x64, .f32⟩
  | .hbm, ⟨40, _⟩ => ⟨S4096x128x64, .f32⟩
  | .hbm, ⟨41, _⟩ => ⟨S1x128x64, .f32⟩
  | .hbm, ⟨42, _⟩ => ⟨S4096x128x64, .f32⟩
  | .hbm, ⟨43, _⟩ => ⟨S4096x128x64, .f32⟩
  | .hbm, ⟨44, _⟩ => ⟨S4096x128x64, .f32⟩
  | .hbm, ⟨45, _⟩ => ⟨S4096x128x64, .f32⟩
  | .hbm, ⟨46, _⟩ => ⟨S4096x128x64, .f32⟩
  | .hbm, ⟨47, _⟩ => ⟨S4096x128x64, .f32⟩
  | .hbm, ⟨48, _⟩ => ⟨S128x64, .f32⟩
  | .hbm, ⟨49, _⟩ => ⟨S1x128x64, .f32⟩
  | .hbm, ⟨50, _⟩ => ⟨S4096x128x64, .f32⟩
  | .hbm, ⟨51, _⟩ => ⟨S4096x128x64, .f32⟩
  | .hbm, ⟨52, _⟩ => ⟨S_, .f32⟩
  | .hbm, ⟨53, _⟩ => ⟨S4096x128x64, .f32⟩
  | .hbm, ⟨54, _⟩ => ⟨S4096x128x64, .f32⟩
  | .hbm, ⟨55, _⟩ => ⟨S_, .f32⟩
  | .hbm, ⟨56, _⟩ => ⟨S4096x128x64, .f32⟩
  | .hbm, ⟨57, _⟩ => ⟨S4096x128x64, .f32⟩
  | .hbm, ⟨58, _⟩ => ⟨S1x128x64, .f32⟩
  | .hbm, ⟨59, _⟩ => ⟨S4096x128x64, .f32⟩
  | .hbm, ⟨60, _⟩ => ⟨S4096x128x64, .f32⟩
  | .hbm, ⟨61, _⟩ => ⟨S4096x128x64, .f32⟩
  | .hbm, ⟨62, _⟩ => ⟨S_, .f32⟩
  | .hbm, ⟨63, _⟩ => ⟨S4096x128, .f32⟩
  | .hbm, ⟨64, _⟩ => ⟨S4096x128x64, .f32⟩
  | .hbm, ⟨65, _⟩ => ⟨S_, .f32⟩
  | .hbm, ⟨66, _⟩ => ⟨S4096x128, .f32⟩
  | .hbm, ⟨67, _⟩ => ⟨S4096x128, .f32⟩
  | .hbm, ⟨68, _⟩ => ⟨S4096x128x64, .f32⟩
  | .hbm, ⟨69, _⟩ => ⟨S_, .f32⟩
  | .hbm, ⟨70, _⟩ => ⟨S4096x128, .f32⟩
  | .hbm, ⟨71, _⟩ => ⟨S4096x128, .f32⟩
  | .hbm, ⟨72, _⟩ => ⟨S4096x128x1, .f32⟩
  | .hbm, ⟨73, _⟩ => ⟨S4096x128x1, .f32⟩
  | .hbm, ⟨74, _⟩ => ⟨S4096x128x2, .f32⟩
  | .hbm, ⟨75, _⟩ => ⟨S4096x128x2, .f32⟩
  | .hbm, ⟨76, _⟩ => ⟨S4096x256, .f32⟩
  | .hbm, ⟨77, _⟩ => ⟨S_, .f32⟩
  | .hbm, ⟨78, _⟩ => ⟨S4096x256, .f32⟩
  | .hbm, ⟨79, _⟩ => ⟨S4096x256, .f32⟩
  | .hbm, ⟨80, _⟩ => ⟨S_, .f32⟩
  | .hbm, ⟨81, _⟩ => ⟨S4096x256, .f32⟩
  | .hbm, ⟨82, _⟩ => ⟨S4096x256, .f32⟩
  | .hbm, ⟨83, _⟩ => ⟨S4096x256, .f32⟩
  | .hbm, ⟨84, _⟩ => ⟨S4096x256, .f32⟩
  | .hbm, ⟨85, _⟩ => ⟨S_, .f32⟩
  | .hbm, ⟨86, _⟩ => ⟨S4096x256, .f32⟩
  | .hbm, ⟨87, _⟩ => ⟨S4096x256, .f32⟩
  | .hbm, ⟨88, _⟩ => ⟨S_, .f32⟩
  | .hbm, ⟨89, _⟩ => ⟨S4096x256, .f32⟩
  | .hbm, ⟨90, _⟩ => ⟨S4096x256, .f32⟩
  | .hbm, ⟨91, _⟩ => ⟨S1x128x2, .f32⟩
  | .hbm, ⟨92, _⟩ => ⟨S4096x128x2, .f32⟩
  | .hbm, ⟨93, _⟩ => ⟨S4096x128x2, .f32⟩
  | .hbm, ⟨94, _⟩ => ⟨S4096x128x2, .f32⟩
  | .hbm, ⟨95, _⟩ => ⟨S_, .f32⟩
  | .hbm, ⟨96, _⟩ => ⟨S4096x128, .f32⟩
  | .hbm, ⟨97, _⟩ => ⟨S4096x128x1, .f32⟩
  | .hbm, ⟨98, _⟩ => ⟨S4096x128x1, .f32⟩
  | .hbm, ⟨99, _⟩ => ⟨S4096x128x1, .f32⟩
  | .hbm, ⟨100, _⟩ => ⟨S_, .f32⟩
  | .hbm, ⟨101, _⟩ => ⟨S4096x128x1, .f32⟩
  | .hbm, ⟨102, _⟩ => ⟨S4096x128x1, .f32⟩
  | .hbm, ⟨103, _⟩ => ⟨S_, .f32⟩
  | .hbm, ⟨104, _⟩ => ⟨S4096x128x1, .f32⟩
  | .hbm, ⟨105, _⟩ => ⟨S4096x128x1, .f32⟩
  | .hbm, ⟨106, _⟩ => ⟨S4096x128x1, .f32⟩
  | .hbm, ⟨107, _⟩ => ⟨S4096x128x2, .f32⟩
  | .hbm, ⟨108, _⟩ => ⟨S4096x128x2, .f32⟩
  | .hbm, ⟨109, _⟩ => ⟨S4096x128x2, .f32⟩
  | .hbm, ⟨110, _⟩ => ⟨S4096x128x2, .f32⟩
  | .hbm, ⟨111, _⟩ => ⟨S4096x256, .f32⟩
  | .hbm, ⟨112, _⟩ => ⟨S_, .f32⟩
  | .hbm, ⟨113, _⟩ => ⟨S4096x256, .f32⟩
  | .hbm, ⟨114, _⟩ => ⟨S4096x256, .f32⟩
  | _, _ => ⟨S4096x128x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst : Ref sig .tc := ⟨.hbm, 52, rfl⟩
abbrev main_v47 : Ref sig .tc := ⟨.hbm, 53, rfl⟩
abbrev main_v48 : Ref sig .tc := ⟨.hbm, 54, rfl⟩
abbrev main_cst_0 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_1 : Ref sig .tc := ⟨.hbm, 62, rfl⟩
abbrev main_v55 : Ref sig .tc := ⟨.hbm, 63, rfl⟩
abbrev main_v56 : Ref sig .tc := ⟨.hbm, 64, rfl⟩
abbrev main_cst_2 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_3 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_4 : Ref sig .tc := ⟨.hbm, 77, rfl⟩
abbrev main_v67 : Ref sig .tc := ⟨.hbm, 78, rfl⟩
abbrev main_v68 : Ref sig .tc := ⟨.hbm, 79, rfl⟩
abbrev main_cst_5 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_6 : Ref sig .tc := ⟨.hbm, 85, rfl⟩
abbrev main_v73 : Ref sig .tc := ⟨.hbm, 86, rfl⟩
abbrev main_v74 : Ref sig .tc := ⟨.hbm, 87, rfl⟩
abbrev main_cst_7 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_call0_v0 : Ref sig .tc := ⟨.hbm, 94, rfl⟩
abbrev main_call0_cst : Ref sig .tc := ⟨.hbm, 95, rfl⟩
abbrev main_call0_v1 : Ref sig .tc := ⟨.hbm, 96, rfl⟩
abbrev main_call0_v2 : Ref sig .tc := ⟨.hbm, 97, rfl⟩
abbrev main_v80 : Ref sig .tc := ⟨.hbm, 98, rfl⟩
abbrev main_v81 : Ref sig .tc := ⟨.hbm, 99, rfl⟩
abbrev main_cst_8 : Ref sig .tc := ⟨.hbm, 100, rfl⟩
abbrev main_v82 : Ref sig .tc := ⟨.hbm, 101, rfl⟩
abbrev main_v83 : Ref sig .tc := ⟨.hbm, 102, rfl⟩
abbrev main_cst_9 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_10 : Ref sig .tc := ⟨.hbm, 112, rfl⟩
abbrev main_v92 : Ref sig .tc := ⟨.hbm, 113, rfl⟩
abbrev main_v93 : Ref sig .tc := ⟨.hbm, 114, rfl⟩

abbrev nD : Nat := 1
abbrev τ : Topo := Topo.v7x

variable {F : FTy → Type} [FloatOps F]

class Facts₀ : Prop where
  slices_S128x64x2x2_S128x64x1x1_0_0_0_0 : S128x64x2x2.Slices ![0, 0, 0, 0] S128x64x1x1
  shapeCasts_S128x64x1x1_S128x64 : S128x64x1x1.ShapeCasts S128x64
  slices_S128x64x2x2_S128x64x1x1_0_0_0_1 : S128x64x2x2.Slices ![0, 0, 0, 1] S128x64x1x1
  slices_S128x64x2x2_S128x64x1x1_0_0_1_0 : S128x64x2x2.Slices ![0, 0, 1, 0] S128x64x1x1
  slices_S128x64x2x2_S128x64x1x1_0_0_1_1 : S128x64x2x2.Slices ![0, 0, 1, 1] S128x64x1x1
  bcast_S4096x128x2_S4096x128x1x2_0_1_3 : S4096x128x2.BroadcastsInDim S4096x128x1x2 (![0, 1, 3] : Fin 3 → Fin S4096x128x1x2.rank)
  bcast_S128x64x2_S1x128x64x2_1_2_3 : S128x64x2.BroadcastsInDim S1x128x64x2 (![1, 2, 3] : Fin 3 → Fin S1x128x64x2.rank)
  bcast_S4096x128x1x2_S4096x128x64x2_0_1_2_3 : S4096x128x1x2.BroadcastsInDim S4096x128x64x2 (![0, 1, 2, 3] : Fin 4 → Fin S4096x128x64x2.rank)
  bcast_S1x128x64x2_S4096x128x64x2_0_1_2_3 : S1x128x64x2.BroadcastsInDim S4096x128x64x2 (![0, 1, 2, 3] : Fin 4 → Fin S4096x128x64x2.rank)
  slices_S4096x128x64x2_S4096x128x64x1_0_0_0_0 : S4096x128x64x2.Slices ![0, 0, 0, 0] S4096x128x64x1
  shapeCasts_S4096x128x64x1_S4096x128x64 : S4096x128x64x1.ShapeCasts S4096x128x64
  slices_S4096x128x64x2_S4096x128x64x1_0_0_0_1 : S4096x128x64x2.Slices ![0, 0, 0, 1] S4096x128x64x1
  bcast_S128x64_S1x128x64_1_2 : S128x64.BroadcastsInDim S1x128x64 (![1, 2] : Fin 2 → Fin S1x128x64.rank)
  bcast_S1x128x64_S4096x128x64_0_1_2 : S1x128x64.BroadcastsInDim S4096x128x64 (![0, 1, 2] : Fin 3 → Fin S4096x128x64.rank)
  bcast_S_S4096x128x64 : S_.BroadcastsInDim S4096x128x64 (![] : Fin 0 → Fin S4096x128x64.rank)
  reducesTo_S4096x128x64_S4096x128_d2 : S4096x128x64.ReducesTo [2] S4096x128
  h_S_ : 0 < S_.numel
  bcast_S4096x128_S4096x128x1_0_1 : S4096x128.BroadcastsInDim S4096x128x1 (![0, 1] : Fin 2 → Fin S4096x128x1.rank)
  concatenates_S4096x128x1_S4096x128x1_S4096x128x2_d2 : Shape.Concatenates [S4096x128x1, S4096x128x1] S4096x128x2 2
  bcast_S4096x128_S4096x128x2_0_1 : S4096x128.BroadcastsInDim S4096x128x2 (![0, 1] : Fin 2 → Fin S4096x128x2.rank)
  shapeCasts_S4096x128x2_S4096x256 : S4096x128x2.ShapeCasts S4096x256
  bcast_S_S4096x256 : S_.BroadcastsInDim S4096x256 (![] : Fin 0 → Fin S4096x256.rank)
  bcast_S128x2_S1x128x2_1_2 : S128x2.BroadcastsInDim S1x128x2 (![1, 2] : Fin 2 → Fin S1x128x2.rank)
  bcast_S1x128x2_S4096x128x2_0_1_2 : S1x128x2.BroadcastsInDim S4096x128x2 (![0, 1, 2] : Fin 3 → Fin S4096x128x2.rank)
  reducesTo_S4096x128x2_S4096x128_d2 : S4096x128x2.ReducesTo [2] S4096x128
  bcast_S_S4096x128x1 : S_.BroadcastsInDim S4096x128x1 (![] : Fin 0 → Fin S4096x128x1.rank)
  bcast_S4096x128x1_S4096x128x2_0_1_2 : S4096x128x1.BroadcastsInDim S4096x128x2 (![0, 1, 2] : Fin 3 → Fin S4096x128x2.rank)

variable [Facts₀]

class Facts : Prop extends Facts₀ where

variable [Facts]
-- ==== Proof.LibPlaneSlices.lean ====
/-
  One plane of an array along its trailing size-n axes, with the unit axes then dropped, read at an index — for any sizes.

  `x[..., e]` of an [a, b, n] array, taken as the slice [0:a, 0:b, e:e+1] viewed as [a, b], is at (p, q) the array at
  (p, q, e).  `x[..., e, f]` of an [a, b, n, n'] array, the slice [0:a, 0:b, e:e+1, f:f+1] viewed as [a, b], is at (p, q)
  the array at (p, q, e, f).  And one column `x[:, e]` of an [a, n] array laid out as a row [1, a] — the slice
  [0:a, e:e+1], viewed as [a], broadcast to a leading unit axis — is at (0, q) the array at (q, e).  Each chains the
  library's read-at-an-index lemmas for the slice, the shape cast and the broadcast, the coordinate arithmetic done once.
-/
import Idealize.ShloMosaic.Lib.ValueIdx
import Idealize.ShloMosaic.Lib.Pipeline.Value

namespace Idealize.ShloMosaic.Planes

open Idealize.ShloMosaic Idealize.ShloMosaic.ValueIdx

variable {α : Type}

/-- The plane `x[..., e]` of a rank-3 array at (p, q) is the array at (p, q, e). -/
theorem planeLast_apply {a b n e : Nat} (x : (⟨3, ![a, b, n]⟩ : Shape).Idx → α)
    (h : (⟨3, ![a, b, n]⟩ : Shape).Slices ![0, 0, e] ⟨3, ![a, b, 1]⟩)
    (h' : (⟨3, ![a, b, 1]⟩ : Shape).ShapeCasts ⟨2, ![a, b]⟩) (p : Fin a) (q : Fin b) (he : e < n) :
    shapeCast (⟨2, ![a, b]⟩ : Shape) (extractStridedSlice (⟨3, ![a, b, 1]⟩ : Shape) ![0, 0, e] x h) h' (ix2 p q)
      = x (ix3 p q (⟨e, he⟩ : Fin n)) := by
  refine (shapeCast_apply _ h' (ix2 p q) (ix3 p q (0 : Fin 1)) ?_).trans ?_
  · rw [Shape.rowMajor_val_two, Shape.rowMajor_val_three]
    show (p.val * b + q.val) * 1 + 0 = p.val * b + q.val
    omega
  · exact extractStridedSlice_apply ![0, 0, e] x h (ix3 p q (0 : Fin 1)) (ix3 p q (⟨e, he⟩ : Fin n)) (fun d => match d with
      | ⟨0, _⟩ => by show p.val = 0 + p.val; omega
      | ⟨1, _⟩ => by show q.val = 0 + q.val; omega
      | ⟨2, _⟩ => by show e = e + 0; omega)

/-- The plane `x[..., e, f]` of a rank-4 array at (p, q) is the array at (p, q, e, f). -/
theorem planeLast2_apply {a b n n' e f : Nat} (x : (⟨4, ![a, b, n, n']⟩ : Shape).Idx → α)
    (h : (⟨4, ![a, b, n, n']⟩ : Shape).Slices ![0, 0, e, f] ⟨4, ![a, b, 1, 1]⟩)
    (h' : (⟨4, ![a, b, 1, 1]⟩ : Shape).ShapeCasts ⟨2, ![a, b]⟩) (p : Fin a) (q : Fin b) (he : e < n) (hf : f < n') :
    shapeCast (⟨2, ![a, b]⟩ : Shape) (extractStridedSlice (⟨4, ![a, b, 1, 1]⟩ : Shape) ![0, 0, e, f] x h) h' (ix2 p q)
      = x (ix4 p q (⟨e, he⟩ : Fin n) (⟨f, hf⟩ : Fin n')) := by
  refine (shapeCast_apply _ h' (ix2 p q) (ix4 p q (0 : Fin 1) (0 : Fin 1)) ?_).trans ?_
  · rw [Shape.rowMajor_val_two, Shape.rowMajor_val_four]
    show ((p.val * b + q.val) * 1 + 0) * 1 + 0 = p.val * b + q.val
    omega
  · exact extractStridedSlice_apply ![0, 0, e, f] x h (ix4 p q (0 : Fin 1) (0 : Fin 1))
      (ix4 p q (⟨e, he⟩ : Fin n) (⟨f, hf⟩ : Fin n')) (fun d => match d with
      | ⟨0, _⟩ => by show p.val = 0 + p.val; omega
      | ⟨1, _⟩ => by show q.val = 0 + q.val; omega
      | ⟨2, _⟩ => by show e = e + 0; omega
      | ⟨3, _⟩ => by show f = f + 0; omega)

/-- The column `x[:, e]` of a matrix laid out as a row [1, a]: entry (0, q) is the matrix at (q, e). -/
theorem columnAsRow_apply {a n e : Nat} (x : (⟨2, ![a, n]⟩ : Shape).Idx → α)
    (h : (⟨2, ![a, n]⟩ : Shape).Slices ![0, e] ⟨2, ![a, 1]⟩)
    (h' : (⟨2, ![a, 1]⟩ : Shape).ShapeCasts ⟨1, ![a]⟩)
    (hb : (⟨1, ![a]⟩ : Shape).BroadcastsInDim ⟨2, ![1, a]⟩ ![1]) (z : Fin 1) (q : Fin a) (he : e < n) :
    broadcastInDim (⟨2, ![1, a]⟩ : Shape) ![1] hb
        (shapeCast (⟨1, ![a]⟩ : Shape) (extractStridedSlice (⟨2, ![a, 1]⟩ : Shape) ![0, e] x h) h') (ix2 z q)
      = x (ix2 q (⟨e, he⟩ : Fin n)) := by
  refine (broadcastInDim_apply ![1] hb _ (ix2 z q) (ix1 q) (fun d => match d with
    | ⟨0, _⟩ => by
        show q.val = if a = 1 then 0 else q.val
        by_cases ha : a = 1
        · rw [if_pos ha]; have := q.isLt; omega
        · rw [if_neg ha])).trans ?_
  refine (shapeCast_apply _ h' (ix1 q) (ix2 q (0 : Fin 1)) ?_).trans ?_
  · rw [Shape.rowMajor_val_one, Shape.rowMajor_val_two]
    show q.val * 1 + 0 = q.val
    omega
  · exact extractStridedSlice_apply ![0, e] x h (ix2 q (0 : Fin 1)) (ix2 q (⟨e, he⟩ : Fin n)) (fun d => match d with
      | ⟨0, _⟩ => by show q.val = 0 + q.val; omega
      | ⟨1, _⟩ => by show e = e + 0; omega)

end Idealize.ShloMosaic.Planes
-- ==== Proof.KernelInputs.lean ====
/-
  The eleven arrays the region reads, and each grid point's blocks of them, as entries of the five argument arrays.

  Before the region the host splits every trailing size-2 axis off: the two coordinate planes of the points
  [4096, 128], the two mean planes and the four covariance planes [128, 64], and the two scale columns laid out as rows
  [1, 128]; the weights are used as given.  Grid point t takes rows 32·t … 32·t + 31 of the two point planes and the whole
  of every table.  So entry (p, k) of a point-plane block at t is the points array at (32·t + p, k, e), and the table and
  scale blocks are the tables and scale columns themselves.
-/
import proofs.«128031_j2284922601915_2_alg».proof.Proof.Gen.KernelIdeal.Frame
import proofs.«128031_j2284922601915_2_alg».proof.Proof.LibPlaneSlices
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.ValueIdx Idealize.ShloMosaic.Planes

namespace Cert.KernelIdeal.Inputs

open Cert.KernelIdeal Cert.KernelIdeal.Gen

variable (m : (ℓ : Loc nD τ sig) → Buf (Elt Ideal) ℓ)

/-! ## The arrays the host prepares, at an index -/

/-- The first coordinate plane of the points. -/
theorem plane_z0 (c : Dev nD) (r : Fin 4096) (k : Fin 128) :
    (V m c main_v1 : S4096x128.Idx → EReal) (ix2 r k)
      = (m ((c : Thread nD τ).loc main_arg0) : S4096x128x2.Idx → EReal) (ix3 r k (0 : Fin 2)) := by
  have e : (V m c main_v1 : S4096x128.Idx → EReal)
      = shapeCast S4096x128 (extractStridedSlice S4096x128x1 ![0, 0, 0] (m ((c : Thread nD τ).loc main_arg0)) slices_S4096x128x2_S4096x128x1_0_0_0)
          shapeCasts_S4096x128x1_S4096x128 := by
    show StableHlo.after hostOps0 (fun b => m (c, b)) (Proc.devRef .tc main_v1) = _
    after_results
    rfl
  rw [e]
  exact planeLast_apply _ _ _ r k (by decide)

/-- The second coordinate plane of the points. -/
theorem plane_z1 (c : Dev nD) (r : Fin 4096) (k : Fin 128) :
    (V m c main_v3 : S4096x128.Idx → EReal) (ix2 r k)
      = (m ((c : Thread nD τ).loc main_arg0) : S4096x128x2.Idx → EReal) (ix3 r k (1 : Fin 2)) := by
  have e : (V m c main_v3 : S4096x128.Idx → EReal)
      = shapeCast S4096x128 (extractStridedSlice S4096x128x1 ![0, 0, 1] (m ((c : Thread nD τ).loc main_arg0)) slices_S4096x128x2_S4096x128x1_0_0_1)
          shapeCasts_S4096x128x1_S4096x128 := by
    show StableHlo.after hostOps0 (fun b => m (c, b)) (Proc.devRef .tc main_v3) = _
    after_results
    rfl
  rw [e]
  exact planeLast_apply _ _ _ r k (by decide)

/-- The two mean planes. -/
theorem plane_mu0 (c : Dev nD) (k : Fin 128) (j : Fin 64) :
    (V m c main_v5 : S128x64.Idx → EReal) (ix2 k j)
      = (m ((c : Thread nD τ).loc main_arg2) : S128x64x2.Idx → EReal) (ix3 k j (0 : Fin 2)) := by
  have e : (V m c main_v5 : S128x64.Idx → EReal)
      = shapeCast S128x64 (extractStridedSlice S128x64x1 ![0, 0, 0] (m ((c : Thread nD τ).loc main_arg2)) slices_S128x64x2_S128x64x1_0_0_0)
          shapeCasts_S128x64x1_S128x64 := by
    show StableHlo.after hostOps0 (fun b => m (c, b)) (Proc.devRef .tc main_v5) = _
    after_results
    rfl
  rw [e]
  exact planeLast_apply _ _ _ k j (by decide)

theorem plane_mu1 (c : Dev nD) (k : Fin 128) (j : Fin 64) :
    (V m c main_v7 : S128x64.Idx → EReal) (ix2 k j)
      = (m ((c : Thread nD τ).loc main_arg2) : S128x64x2.Idx → EReal) (ix3 k j (1 : Fin 2)) := by
  have e : (V m c main_v7 : S128x64.Idx → EReal)
      = shapeCast S128x64 (extractStridedSlice S128x64x1 ![0, 0, 1] (m ((c : Thread nD τ).loc main_arg2)) slices_S128x64x2_S128x64x1_0_0_1)
          shapeCasts_S128x64x1_S128x64 := by
    show StableHlo.after hostOps0 (fun b => m (c, b)) (Proc.devRef .tc main_v7) = _
    after_results
    rfl
  rw [e]
  exact planeLast_apply _ _ _ k j (by decide)

/-- The four covariance planes. -/
theorem plane_cov00 (c : Dev nD) (k : Fin 128) (j : Fin 64) :
    (V m c main_v9 : S128x64.Idx → EReal) (ix2 k j)
      = (m ((c : Thread nD τ).loc main_arg3) : S128x64x2x2.Idx → EReal) (ix4 k j (0 : Fin 2) (0 : Fin 2)) := by
  have e : (V m c main_v9 : S128x64.Idx → EReal)
      = shapeCast S128x64 (extractStridedSlice S128x64x1x1 ![0, 0, 0, 0] (m ((c : Thread nD τ).loc main_arg3)) slices_S128x64x2x2_S128x64x1x1_0_0_0_0)
          shapeCasts_S128x64x1x1_S128x64 := by
    show StableHlo.after hostOps0 (fun b => m (c, b)) (Proc.devRef .tc main_v9) = _
    after_results
    rfl
  rw [e]
  exact planeLast2_apply _ _ _ k j (by decide) (by decide)

theorem plane_cov01 (c : Dev nD) (k : Fin 128) (j : Fin 64) :
    (V m c main_v11 : S128x64.Idx → EReal) (ix2 k j)
      = (m ((c : Thread nD τ).loc main_arg3) : S128x64x2x2.Idx → EReal) (ix4 k j (0 : Fin 2) (1 : Fin 2)) := by
  have e : (V m c main_v11 : S128x64.Idx → EReal)
      = shapeCast S128x64 (extractStridedSlice S128x64x1x1 ![0, 0, 0, 1] (m ((c : Thread nD τ).loc main_arg3)) slices_S128x64x2x2_S128x64x1x1_0_0_0_1)
          shapeCasts_S128x64x1x1_S128x64 := by
    show StableHlo.after hostOps0 (fun b => m (c, b)) (Proc.devRef .tc main_v11) = _
    after_results
    rfl
  rw [e]
  exact planeLast2_apply _ _ _ k j (by decide) (by decide)

theorem plane_cov10 (c : Dev nD) (k : Fin 128) (j : Fin 64) :
    (V m c main_v13 : S128x64.Idx → EReal) (ix2 k j)
      = (m ((c : Thread nD τ).loc main_arg3) : S128x64x2x2.Idx → EReal) (ix4 k j (1 : Fin 2) (0 : Fin 2)) := by
  have e : (V m c main_v13 : S128x64.Idx → EReal)
      = shapeCast S128x64 (extractStridedSlice S128x64x1x1 ![0, 0, 1, 0] (m ((c : Thread nD τ).loc main_arg3)) slices_S128x64x2x2_S128x64x1x1_0_0_1_0)
          shapeCasts_S128x64x1x1_S128x64 := by
    show StableHlo.after hostOps0 (fun b => m (c, b)) (Proc.devRef .tc main_v13) = _
    after_results
    rfl
  rw [e]
  exact planeLast2_apply _ _ _ k j (by decide) (by decide)

theorem plane_cov11 (c : Dev nD) (k : Fin 128) (j : Fin 64) :
    (V m c main_v15 : S128x64.Idx → EReal) (ix2 k j)
      = (m ((c : Thread nD τ).loc main_arg3) : S128x64x2x2.Idx → EReal) (ix4 k j (1 : Fin 2) (1 : Fin 2)) := by
  have e : (V m c main_v15 : S128x64.Idx → EReal)
      = shapeCast S128x64 (extractStridedSlice S128x64x1x1 ![0, 0, 1, 1] (m ((c : Thread nD τ).loc main_arg3)) slices_S128x64x2x2_S128x64x1x1_0_0_1_1)
          shapeCasts_S128x64x1x1_S128x64 := by
    show StableHlo.after hostOps0 (fun b => m (c, b)) (Proc.devRef .tc main_v15) = _
    after_results
    rfl
  rw [e]
  exact planeLast2_apply _ _ _ k j (by decide) (by decide)

/-- The two scale columns, laid out as rows. -/
theorem row_sc0 (c : Dev nD) (k : Fin 128) :
    (V m c main_v18 : S1x128.Idx → EReal) (ix2 (0 : Fin 1) k)
      = (m ((c : Thread nD τ).loc main_arg4) : S128x2.Idx → EReal) (ix2 k (0 : Fin 2)) := by
  have e : (V m c main_v18 : S1x128.Idx → EReal)
      = broadcastInDim S1x128 ![1] bcast_S128_S1x128_1
          (shapeCast S128 (extractStridedSlice S128x1 ![0, 0] (m ((c : Thread nD τ).loc main_arg4)) slices_S128x2_S128x1_0_0) shapeCasts_S128x1_S128) := by
    show StableHlo.after hostOps0 (fun b => m (c, b)) (Proc.devRef .tc main_v18) = _
    after_results
    rfl
  rw [e]
  exact columnAsRow_apply _ _ _ _ (0 : Fin 1) k (by decide)

theorem row_sc1 (c : Dev nD) (k : Fin 128) :
    (V m c main_v21 : S1x128.Idx → EReal) (ix2 (0 : Fin 1) k)
      = (m ((c : Thread nD τ).loc main_arg4) : S128x2.Idx → EReal) (ix2 k (1 : Fin 2)) := by
  have e : (V m c main_v21 : S1x128.Idx → EReal)
      = broadcastInDim S1x128 ![1] bcast_S128_S1x128_1
          (shapeCast S128 (extractStridedSlice S128x1 ![0, 1] (m ((c : Thread nD τ).loc main_arg4)) slices_S128x2_S128x1_0_1) shapeCasts_S128x1_S128) := by
    show StableHlo.after hostOps0 (fun b => m (c, b)) (Proc.devRef .tc main_v21) = _
    after_results
    rfl
  rw [e]
  exact columnAsRow_apply _ _ _ _ (0 : Fin 1) k (by decide)

/-! ## The printed index maps, decided once over the grid -/

/-- The two point planes and the three outputs move one block of 32 rows per grid point; every table stays put. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- The batch row that row p of grid point t's block is. -/
def rowOf (t : Fin cfg0.N) (p : Fin 32) : Fin 4096 :=
  ⟨t.val * 32 + p.val, by
    have hN : cfg0.N = 128 := N_0
    have ht : t.val < cfg0.N := t.isLt
    have hp : p.val < 32 := p.isLt
    omega⟩

theorem rowOf_val (t : Fin cfg0.N) (p : Fin 32) : (rowOf t p).val = t.val * 32 + p.val := rfl

/-! ## Each window's block at a grid point -/

/-- A point-plane block: entry (p, k) at grid point t is the plane at (32·t + p, k). -/
theorem emb_rows0 (t : Fin cfg0.N) (p : Fin 32) (k : Fin 128) :
    ((cfg0.win 0).blk t).view.emb (ix2 p k) = (ix2 (rowOf t p) k : S4096x128.Idx) := by
  obtain ⟨⟨e0, e1⟩, -⟩ := idx_facts t
  funext a; apply Fin.ext
  match a with
  | ⟨0, _⟩ => show win0_0.index t (0 : Fin 2) * 32 + 1 * p.val = t.val * 32 + p.val; omega
  | ⟨1, _⟩ => show win0_0.index t (1 : Fin 2) * 128 + 1 * k.val = k.val; omega

theorem emb_rows1 (t : Fin cfg0.N) (p : Fin 32) (k : Fin 128) :
    ((cfg0.win 1).blk t).view.emb (ix2 p k) = (ix2 (rowOf t p) k : S4096x128.Idx) := by
  obtain ⟨-, ⟨e0, e1⟩, -⟩ := idx_facts t
  funext a; apply Fin.ext
  match a with
  | ⟨0, _⟩ => show win0_1.index t (0 : Fin 2) * 32 + 1 * p.val = t.val * 32 + p.val; omega
  | ⟨1, _⟩ => show win0_1.index t (1 : Fin 2) * 128 + 1 * k.val = k.val; omega

theorem in0 (c : Dev nD) (t : Fin cfg0.N) (p : Fin 32) (k : Fin 128) :
    (iblk m c 0 t : S32x128.Idx → EReal) (ix2 p k)
      = (m ((c : Thread nD τ).loc main_arg0) : S4096x128x2.Idx → EReal) (ix3 (rowOf t p) k (0 : Fin 2)) := by
  unfold iblk
  rw [View.read_apply]
  show (V m c main_v1 : S4096x128.Idx → EReal) (((cfg0.win 0).blk t).view.emb (ix2 p k)) = _
  rw [emb_rows0]
  exact plane_z0 m c (rowOf t p) k

theorem in1 (c : Dev nD) (t : Fin cfg0.N) (p : Fin 32) (k : Fin 128) :
    (iblk m c 1 t : S32x128.Idx → EReal) (ix2 p k)
      = (m ((c : Thread nD τ).loc main_arg0) : S4096x128x2.Idx → EReal) (ix3 (rowOf t p) k (1 : Fin 2)) := by
  unfold iblk
  rw [View.read_apply]
  show (V m c main_v3 : S4096x128.Idx → EReal) (((cfg0.win 1).blk t).view.emb (ix2 p k)) = _
  rw [emb_rows1]
  exact plane_z1 m c (rowOf t p) k

/-! ## The table blocks: every grid point takes the whole table -/

theorem emb_tab2 (t : Fin cfg0.N) (k : Fin 128) (j : Fin 64) :
    ((cfg0.win 2).blk t).view.emb (ix2 k j) = (ix2 k j : S128x64.Idx) := by
  obtain ⟨-, -, ⟨e0, e1⟩, -⟩ := idx_facts t
  funext a; apply Fin.ext
  match a with
  | ⟨0, _⟩ => show win0_2.index t (0 : Fin 2) * 128 + 1 * k.val = k.val; omega
  | ⟨1, _⟩ => show win0_2.index t (1 : Fin 2) * 64 + 1 * j.val = j.val; omega

/-- The weights are used as given. -/
theorem in2 (c : Dev nD) (t : Fin cfg0.N) (k : Fin 128) (j : Fin 64) :
    (iblk m c 2 t : S128x64.Idx → EReal) (ix2 k j)
      = (m ((c : Thread nD τ).loc main_arg1) : S128x64.Idx → EReal) (ix2 k j) := by
  unfold iblk
  rw [View.read_apply]
  show (V m c main_arg1 : S128x64.Idx → EReal) (((cfg0.win 2).blk t).view.emb (ix2 k j)) = _
  rw [emb_tab2]
  exact congrFun (V_main_arg1 m c) (ix2 k j)

theorem emb_tab3 (t : Fin cfg0.N) (k : Fin 128) (j : Fin 64) :
    ((cfg0.win 3).blk t).view.emb (ix2 k j) = (ix2 k j : S128x64.Idx) := by
  obtain ⟨-, -, -, ⟨e0, e1⟩, -⟩ := idx_facts t
  funext a; apply Fin.ext
  match a with
  | ⟨0, _⟩ => show win0_3.index t (0 : Fin 2) * 128 + 1 * k.val = k.val; omega
  | ⟨1, _⟩ => show win0_3.index t (1 : Fin 2) * 64 + 1 * j.val = j.val; omega

/-- The first mean plane. -/
theorem in3 (c : Dev nD) (t : Fin cfg0.N) (k : Fin 128) (j : Fin 64) :
    (iblk m c 3 t : S128x64.Idx → EReal) (ix2 k j)
      = (m ((c : Thread nD τ).loc main_arg2) : S128x64x2.Idx → EReal) (ix3 k j (0 : Fin 2)) := by
  unfold iblk
  rw [View.read_apply]
  show (V m c main_v5 : S128x64.Idx → EReal) (((cfg0.win 3).blk t).view.emb (ix2 k j)) = _
  rw [emb_tab3]
  exact plane_mu0 m c k j

theorem emb_tab4 (t : Fin cfg0.N) (k : Fin 128) (j : Fin 64) :
    ((cfg0.win 4).blk t).view.emb (ix2 k j) = (ix2 k j : S128x64.Idx) := by
  obtain ⟨-, -, -, -, ⟨e0, e1⟩, -⟩ := idx_facts t
  funext a; apply Fin.ext
  match a with
  | ⟨0, _⟩ => show win0_4.index t (0 : Fin 2) * 128 + 1 * k.val = k.val; omega
  | ⟨1, _⟩ => show win0_4.index t (1 : Fin 2) * 64 + 1 * j.val = j.val; omega

/-- The second mean plane. -/
theorem in4 (c : Dev nD) (t : Fin cfg0.N) (k : Fin 128) (j : Fin 64) :
    (iblk m c 4 t : S128x64.Idx → EReal) (ix2 k j)
      = (m ((c : Thread nD τ).loc main_arg2) : S128x64x2.Idx → EReal) (ix3 k j (1 : Fin 2)) := by
  unfold iblk
  rw [View.read_apply]
  show (V m c main_v7 : S128x64.Idx → EReal) (((cfg0.win 4).blk t).view.emb (ix2 k j)) = _
  rw [emb_tab4]
  exact plane_mu1 m c k j

theorem emb_tab5 (t : Fin cfg0.N) (k : Fin 128) (j : Fin 64) :
    ((cfg0.win 5).blk t).view.emb (ix2 k j) = (ix2 k j : S128x64.Idx) := by
  obtain ⟨-, -, -, -, -, ⟨e0, e1⟩, -⟩ := idx_facts t
  funext a; apply Fin.ext
  match a with
  | ⟨0, _⟩ => show win0_5.index t (0 : Fin 2) * 128 + 1 * k.val = k.val; omega
  | ⟨1, _⟩ => show win0_5.index t (1 : Fin 2) * 64 + 1 * j.val = j.val; omega

/-- The covariance plane a. -/
theorem in5 (c : Dev nD) (t : Fin cfg0.N) (k : Fin 128) (j : Fin 64) :
    (iblk m c 5 t : S128x64.Idx → EReal) (ix2 k j)
      = (m ((c : Thread nD τ).loc main_arg3) : S128x64x2x2.Idx → EReal) (ix4 k j (0 : Fin 2) (0 : Fin 2)) := by
  unfold iblk
  rw [View.read_apply]
  show (V m c main_v9 : S128x64.Idx → EReal) (((cfg0.win 5).blk t).view.emb (ix2 k j)) = _
  rw [emb_tab5]
  exact plane_cov00 m c k j

theorem emb_tab6 (t : Fin cfg0.N) (k : Fin 128) (j : Fin 64) :
    ((cfg0.win 6).blk t).view.emb (ix2 k j) = (ix2 k j : S128x64.Idx) := by
  obtain ⟨-, -, -, -, -, -, ⟨e0, e1⟩, -⟩ := idx_facts t
  funext a; apply Fin.ext
  match a with
  | ⟨0, _⟩ => show win0_6.index t (0 : Fin 2) * 128 + 1 * k.val = k.val; omega
  | ⟨1, _⟩ => show win0_6.index t (1 : Fin 2) * 64 + 1 * j.val = j.val; omega

/-- The covariance plane b. -/
theorem in6 (c : Dev nD) (t : Fin cfg0.N) (k : Fin 128) (j : Fin 64) :
    (iblk m c 6 t : S128x64.Idx → EReal) (ix2 k j)
      = (m ((c : Thread nD τ).loc main_arg3) : S128x64x2x2.Idx → EReal) (ix4 k j (0 : Fin 2) (1 : Fin 2)) := by
  unfold iblk
  rw [View.read_apply]
  show (V m c main_v11 : S128x64.Idx → EReal) (((cfg0.win 6).blk t).view.emb (ix2 k j)) = _
  rw [emb_tab6]
  exact plane_cov01 m c k j

theorem emb_tab7 (t : Fin cfg0.N) (k : Fin 128) (j : Fin 64) :
    ((cfg0.win 7).blk t).view.emb (ix2 k j) = (ix2 k j : S128x64.Idx) := by
  obtain ⟨-, -, -, -, -, -, -, ⟨e0, e1⟩, -⟩ := idx_facts t
  funext a; apply Fin.ext
  match a with
  | ⟨0, _⟩ => show win0_7.index t (0 : Fin 2) * 128 + 1 * k.val = k.val; omega
  | ⟨1, _⟩ => show win0_7.index t (1 : Fin 2) * 64 + 1 * j.val = j.val; omega

/-- The covariance plane c'. -/
theorem in7 (c : Dev nD) (t : Fin cfg0.N) (k : Fin 128) (j : Fin 64) :
    (iblk m c 7 t : S128x64.Idx → EReal) (ix2 k j)
      = (m ((c : Thread nD τ).loc main_arg3) : S128x64x2x2.Idx → EReal) (ix4 k j (1 : Fin 2) (0 : Fin 2)) := by
  unfold iblk
  rw [View.read_apply]
  show (V m c main_v13 : S128x64.Idx → EReal) (((cfg0.win 7).blk t).view.emb (ix2 k j)) = _
  rw [emb_tab7]
  exact plane_cov10 m c k j

theorem emb_tab8 (t : Fin cfg0.N) (k : Fin 128) (j : Fin 64) :
    ((cfg0.win 8).blk t).view.emb (ix2 k j) = (ix2 k j : S128x64.Idx) := by
  obtain ⟨-, -, -, -, -, -, -, -, ⟨e0, e1⟩, -⟩ := idx_facts t
  funext a; apply Fin.ext
  match a with
  | ⟨0, _⟩ => show win0_8.index t (0 : Fin 2) * 128 + 1 * k.val = k.val; omega
  | ⟨1, _⟩ => show win0_8.index t (1 : Fin 2) * 64 + 1 * j.val = j.val; omega

/-- The covariance plane d. -/
theorem in8 (c : Dev nD) (t : Fin cfg0.N) (k : Fin 128) (j : Fin 64) :
    (iblk m c 8 t : S128x64.Idx → EReal) (ix2 k j)
      = (m ((c : Thread nD τ).loc main_arg3) : S128x64x2x2.Idx → EReal) (ix4 k j (1 : Fin 2) (1 : Fin 2)) := by
  unfold iblk
  rw [View.read_apply]
  show (V m c main_v15 : S128x64.Idx → EReal) (((cfg0.win 8).blk t).view.emb (ix2 k j)) = _
  rw [emb_tab8]
  exact plane_cov11 m c k j

/-! ## The scale rows -/

theorem emb_row9 (t : Fin cfg0.N) (k : Fin 128) :
    ((cfg0.win 9).blk t).view.emb (ix2 (0 : Fin 1) k) = (ix2 (0 : Fin 1) k : S1x128.Idx) := by
  obtain ⟨-, -, -, -, -, -, -, -, -, ⟨e0, e1⟩, -⟩ := idx_facts t
  funext a; apply Fin.ext
  match a with
  | ⟨0, _⟩ => show win0_9.index t (0 : Fin 2) * 1 + 1 * 0 = 0; omega
  | ⟨1, _⟩ => show win0_9.index t (1 : Fin 2) * 128 + 1 * k.val = k.val; omega

theorem in9 (c : Dev nD) (t : Fin cfg0.N) (k : Fin 128) :
    (iblk m c 9 t : S1x128.Idx → EReal) (ix2 (0 : Fin 1) k)
      = (m ((c : Thread nD τ).loc main_arg4) : S128x2.Idx → EReal) (ix2 k (0 : Fin 2)) := by
  unfold iblk
  rw [View.read_apply]
  show (V m c main_v18 : S1x128.Idx → EReal) (((cfg0.win 9).blk t).view.emb (ix2 (0 : Fin 1) k)) = _
  rw [emb_row9]
  exact row_sc0 m c k

theorem emb_row10 (t : Fin cfg0.N) (k : Fin 128) :
    ((cfg0.win 10).blk t).view.emb (ix2 (0 : Fin 1) k) = (ix2 (0 : Fin 1) k : S1x128.Idx) := by
  obtain ⟨-, -, -, -, -, -, -, -, -, -, ⟨e0, e1⟩, -⟩ := idx_facts t
  funext a; apply Fin.ext
  match a with
  | ⟨0, _⟩ => show win0_10.index t (0 : Fin 2) * 1 + 1 * 0 = 0; omega
  | ⟨1, _⟩ => show win0_10.index t (1 : Fin 2) * 128 + 1 * k.val = k.val; omega

theorem in10 (c : Dev nD) (t : Fin cfg0.N) (k : Fin 128) :
    (iblk m c 10 t : S1x128.Idx → EReal) (ix2 (0 : Fin 1) k)
      = (m ((c : Thread nD τ).loc main_arg4) : S128x2.Idx → EReal) (ix2 k (1 : Fin 2)) := by
  unfold iblk
  rw [View.read_apply]
  show (V m c main_v21 : S1x128.Idx → EReal) (((cfg0.win 10).blk t).view.emb (ix2 (0 : Fin 1) k)) = _
  rw [emb_row10]
  exact row_sc1 m c k

/-! ## The output blocks: grid point t writes rows 32·t … 32·t + 31 -/

theorem emb_out11 (t : Fin cfg0.N) (p : Fin 32) (k : Fin 128) :
    ((cfg0.win 11).blk t).view.emb (ix2 p k) = (ix2 (rowOf t p) k : S4096x128.Idx) := by
  obtain ⟨-, -, -, -, -, -, -, -, -, -, -, ⟨e0, e1⟩, -⟩ := idx_facts t
  funext a; apply Fin.ext
  match a with
  | ⟨0, _⟩ => show win0_11.index t (0 : Fin 2) * 32 + 1 * p.val = t.val * 32 + p.val; omega
  | ⟨1, _⟩ => show win0_11.index t (1 : Fin 2) * 128 + 1 * k.val = k.val; omega

theorem emb_out12 (t : Fin cfg0.N) (p : Fin 32) (k : Fin 128) :
    ((cfg0.win 12).blk t).view.emb (ix2 p k) = (ix2 (rowOf t p) k : S4096x128.Idx) := by
  obtain ⟨-, -, -, -, -, -, -, -, -, -, -, -, ⟨e0, e1⟩, -⟩ := idx_facts t
  funext a; apply Fin.ext
  match a with
  | ⟨0, _⟩ => show win0_12.index t (0 : Fin 2) * 32 + 1 * p.val = t.val * 32 + p.val; omega
  | ⟨1, _⟩ => show win0_12.index t (1 : Fin 2) * 128 + 1 * k.val = k.val; omega

theorem emb_out13 (t : Fin cfg0.N) (p : Fin 32) (k : Fin 128) :
    ((cfg0.win 13).blk t).view.emb (ix2 p k) = (ix2 (rowOf t p) k : S4096x128.Idx) := by
  obtain ⟨-, -, -, -, -, -, -, -, -, -, -, -, -, ⟨e0, e1⟩⟩ := idx_facts t
  funext a; apply Fin.ext
  match a with
  | ⟨0, _⟩ => show win0_13.index t (0 : Fin 2) * 32 + 1 * p.val = t.val * 32 + p.val; omega
  | ⟨1, _⟩ => show win0_13.index t (1 : Fin 2) * 128 + 1 * k.val = k.val; omega

end Cert.KernelIdeal.Inputs

end
-- ==== Proof.Spec.lean ====
/-
  The mathematics both programs compute, stated once over the extended reals with no program in sight.

  For each of 128 keypoints k there is a mixture of 64 planar Gaussians: weight w(k,c), mean (mu(k,c,0), mu(k,c,1)) and a
  2x2 covariance [[a, b], [c', d]] = cov(k,c,·,·). For a batch row r with point (z(r,k,0), z(r,k,1)):
    det      = a·d − b·c'                                     the covariance's determinant
    Sigma⁻¹  = [[d/det, −b/det], [−c'/det, a/det]]            its inverse by the adjugate, every quotient the extended reals' own
    (δ0, δ1) = z(r,k,·) − mu(k,c,·)                           the displacement from the mean
    (s0, s1) = Sigma⁻¹ (δ0, δ1)
    term     = w(k,c) · exp(−½ · ((δ0·s0 + δ1·s1) + log det + 2·log 2π))    the weighted component density
    pdf(r,k) = Σ_c term          g_e(r,k) = −Σ_c term · s_e   the density and its gradient in z
  The gradient is rescaled per coordinate, γ_e = g_e · scale(k,e), its length is ν = sqrt(γ0² + γ1²), and what is returned is
    density(r, 2k+e)  = logistic((pdf(r,k) − ½) / ½)          the same value for e = 0 and e = 1
    gradient(r, 2k+e) = 1 · ((γ_e / ν) · exp((−ν + 5500) / 1100)).
  Every float literal is kept as its binary word (the same word appears in both programs, so it is never evaluated);
  `Ideal.div`, `Ideal.exp`, `Ideal.log`, `Ideal.sqrt`, `Ideal.logistic` are the extended reals' total versions of the
  operations, so the formulas mean something at 0 / 0, at log of a non-positive determinant and at the infinities too, and
  no finiteness of the inputs is assumed anywhere.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.MixtureDensity

/-- The five argument arrays as functions of their indices. -/
abbrev Points := (⟨3, ![4096, 128, 2]⟩ : Shape).Idx → EReal
abbrev Weights := (⟨2, ![128, 64]⟩ : Shape).Idx → EReal
abbrev Means := (⟨3, ![128, 64, 2]⟩ : Shape).Idx → EReal
abbrev Covs := (⟨4, ![128, 64, 2, 2]⟩ : Shape).Idx → EReal
abbrev Scales := (⟨2, ![128, 2]⟩ : Shape).Idx → EReal

/-- The literals, as the words both programs carry: 2·log 2π, −½, ½, 5500, 1100, 1. -/
abbrev twoLogTwoPi : EReal := Ideal.ofBits .f32 0x406B3F8E#32
abbrev negHalf : EReal := Ideal.ofBits .f32 0xBF000000#32
abbrev half : EReal := Ideal.ofBits .f32 0x3F000000#32
abbrev magShift : EReal := Ideal.ofBits .f32 0x45ABE000#32
abbrev magScale : EReal := Ideal.ofBits .f32 0x44898000#32
abbrev one32 : EReal := Ideal.ofBits .f32 0x3F800000#32

section
variable (z : Points) (w : Weights) (mu : Means) (cov : Covs) (sc : Scales)

/-- The determinant of component (k, c)'s covariance. -/
def det (k : Fin 128) (c : Fin 64) : EReal :=
  cov (ix4 k c (0 : Fin 2) (0 : Fin 2)) * cov (ix4 k c (1 : Fin 2) (1 : Fin 2))
    - cov (ix4 k c (0 : Fin 2) (1 : Fin 2)) * cov (ix4 k c (1 : Fin 2) (0 : Fin 2))

/-- The inverse covariance's four entries, by the adjugate. -/
def inv00 (k : Fin 128) (c : Fin 64) : EReal := Ideal.div (cov (ix4 k c (1 : Fin 2) (1 : Fin 2))) (det cov k c)
def inv01 (k : Fin 128) (c : Fin 64) : EReal := Ideal.div (-(cov (ix4 k c (0 : Fin 2) (1 : Fin 2)))) (det cov k c)
def inv10 (k : Fin 128) (c : Fin 64) : EReal := Ideal.div (-(cov (ix4 k c (1 : Fin 2) (0 : Fin 2)))) (det cov k c)
def inv11 (k : Fin 128) (c : Fin 64) : EReal := Ideal.div (cov (ix4 k c (0 : Fin 2) (0 : Fin 2))) (det cov k c)

/-- The displacement of row r's point at keypoint k from component c's mean, coordinate by coordinate. -/
def disp0 (r : Fin 4096) (k : Fin 128) (c : Fin 64) : EReal := z (ix3 r k (0 : Fin 2)) - mu (ix3 k c (0 : Fin 2))
def disp1 (r : Fin 4096) (k : Fin 128) (c : Fin 64) : EReal := z (ix3 r k (1 : Fin 2)) - mu (ix3 k c (1 : Fin 2))

/-- The inverse covariance applied to the displacement. -/
def sol0 (r : Fin 4096) (k : Fin 128) (c : Fin 64) : EReal :=
  inv00 cov k c * disp0 z mu r k c + inv01 cov k c * disp1 z mu r k c
def sol1 (r : Fin 4096) (k : Fin 128) (c : Fin 64) : EReal :=
  inv10 cov k c * disp0 z mu r k c + inv11 cov k c * disp1 z mu r k c

/-- The weighted density of component c at row r's point. -/
def term (r : Fin 4096) (k : Fin 128) (c : Fin 64) : EReal :=
  w (ix2 k c) * Ideal.exp (negHalf *
    (((disp0 z mu r k c * sol0 z mu cov r k c + disp1 z mu r k c * sol1 z mu cov r k c) + Ideal.log (det cov k c))
      + twoLogTwoPi))

/-- The mixture's density at row r, keypoint k, and its gradient in the point. -/
def pdf (r : Fin 4096) (k : Fin 128) : EReal := ∑ c : Fin 64, term z w mu cov r k c
def grad0 (r : Fin 4096) (k : Fin 128) : EReal := -(∑ c : Fin 64, term z w mu cov r k c * sol0 z mu cov r k c)
def grad1 (r : Fin 4096) (k : Fin 128) : EReal := -(∑ c : Fin 64, term z w mu cov r k c * sol1 z mu cov r k c)

/-- The gradient rescaled per coordinate, and its length. -/
def scaled0 (r : Fin 4096) (k : Fin 128) : EReal := grad0 z w mu cov r k * sc (ix2 k (0 : Fin 2))
def scaled1 (r : Fin 4096) (k : Fin 128) : EReal := grad1 z w mu cov r k * sc (ix2 k (1 : Fin 2))
def len (r : Fin 4096) (k : Fin 128) : EReal :=
  Ideal.sqrt (scaled0 z w mu cov sc r k * scaled0 z w mu cov sc r k + scaled1 z w mu cov sc r k * scaled1 z w mu cov sc r k)

/-- The magnitude the direction is multiplied by. -/
def mag (r : Fin 4096) (k : Fin 128) : EReal :=
  Ideal.exp (Ideal.div (-(len z w mu cov sc r k) + magShift) magScale)

/-- What is returned per (row, keypoint): the squashed density, and the two remapped gradient coordinates. -/
def density (r : Fin 4096) (k : Fin 128) : EReal :=
  Ideal.logistic (Ideal.div (pdf z w mu cov r k + negHalf) half)
def remap0 (r : Fin 4096) (k : Fin 128) : EReal :=
  Ideal.div (scaled0 z w mu cov sc r k) (len z w mu cov sc r k) * mag z w mu cov sc r k
def remap1 (r : Fin 4096) (k : Fin 128) : EReal :=
  Ideal.div (scaled1 z w mu cov sc r k) (len z w mu cov sc r k) * mag z w mu cov sc r k

/-- Column j of the results belongs to keypoint j / 2 (and to coordinate j % 2 of its gradient). -/
def keypointOf (j : Fin 256) : Fin 128 := ⟨j.val / 2, by have := j.isLt; omega⟩

/-- The first result at row r, column j: keypoint j / 2's squashed density, the same for both of its columns. -/
def densityAt (r : Fin 4096) (j : Fin 256) : EReal := density z w mu cov r (keypointOf j)

/-- The second result at row r, column j: coordinate j % 2 of keypoint j / 2's remapped gradient, times the word 1. -/
def gradientAt (r : Fin 4096) (j : Fin 256) : EReal :=
  one32 * (if j.val % 2 = 0 then remap0 z w mu cov sc r (keypointOf j) else remap1 z w mu cov sc r (keypointOf j))

/-- The two results as arrays f32[4096, 256]. -/
def densityOut : (⟨2, ![4096, 256]⟩ : Shape).Idx → EReal := fun i => densityAt z w mu cov (i 0) (i 1)
def gradientOut : (⟨2, ![4096, 256]⟩ : Shape).Idx → EReal := fun i => gradientAt z w mu cov sc (i 0) (i 1)

end

/-! ## The two small laws of the extended reals the programs' spellings differ by -/

/-- A negation spelt as a subtraction from the zero word (the kernel's spelling) is the negation. -/
theorem zeroWord_sub (x : EReal) : Ideal.ofBits .f32 0x00000000#32 - x = -x := by
  rw [Ideal.ofBits_zero_f32, zero_sub]

/-- A sum started from the zero word (the reference's spelling of a reduction) is the sum. -/
theorem zeroWord_add (x : EReal) : Ideal.ofBits .f32 0x00000000#32 + x = x := by
  rw [Ideal.ofBits_zero_f32, zero_add]

end Cert.MixtureDensity

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.LibRank3Layout.lean ====
/-
  Rank-3 layout operations read at an index given by its three coordinates, for any sizes.

  A matrix [a, b] viewed as [a, b, 1] (a trailing unit axis added) reads, at (p, q, 0), the matrix at (p, q); a matrix
  [b, c] viewed as [1, b, c] (a leading unit axis added) reads, at (0, q, r), the matrix at (q, r).  An array [a, b, 1]
  broadcast along its last axis to [a, b, c] reads, at (p, q, r), the array at (p, q, 0); an array [1, b, c] broadcast
  along its first axis to [a, b, c] reads, at (p, q, r), the array at (0, q, r).  And over the extended reals the sum of an
  [a, b, c] array along its last axis, started from the zero word, is at (p, q) the finite sum over r of the entries
  (p, q, r).  Each is one instance of the library's read-at-an-index lemma for the operation, with the coordinate
  arithmetic discharged once for all sizes.
-/
import Idealize.ShloMosaic.Lib.ValueIdx
import Idealize.ShloMosaic.Lib.Pipeline.Value
import Idealize.ShloMosaic.PureOps.Ideal.Laws

noncomputable section

open scoped BigOperators

namespace Idealize.ShloMosaic.Rank3

open Idealize.ShloMosaic Idealize.ShloMosaic.ValueIdx

variable {α : Type}

/-- A trailing unit axis added to a matrix: entry (p, q, 0) of the view is entry (p, q). -/
theorem castAddLast_apply {a b : Nat} (v : (⟨2, ![a, b]⟩ : Shape).Idx → α)
    (h : (⟨2, ![a, b]⟩ : Shape).ShapeCasts ⟨3, ![a, b, 1]⟩) (p : Fin a) (q : Fin b) (z : Fin 1) :
    shapeCast (⟨3, ![a, b, 1]⟩ : Shape) v h (ix3 p q z) = v (ix2 p q) := by
  refine shapeCast_apply v h (ix3 p q z) (ix2 p q) ?_
  rw [Shape.rowMajor_val_two, Shape.rowMajor_val_three]
  show p.val * b + q.val = (p.val * b + q.val) * 1 + z.val
  have := z.isLt
  omega

/-- A leading unit axis added to a matrix: entry (0, q, r) of the view is entry (q, r). -/
theorem castAddFirst_apply {b c : Nat} (v : (⟨2, ![b, c]⟩ : Shape).Idx → α)
    (h : (⟨2, ![b, c]⟩ : Shape).ShapeCasts ⟨3, ![1, b, c]⟩) (z : Fin 1) (q : Fin b) (r : Fin c) :
    shapeCast (⟨3, ![1, b, c]⟩ : Shape) v h (ix3 z q r) = v (ix2 q r) := by
  refine shapeCast_apply v h (ix3 z q r) (ix2 q r) ?_
  rw [Shape.rowMajor_val_two, Shape.rowMajor_val_three]
  show q.val * c + r.val = (z.val * b + q.val) * c + r.val
  have hz : z.val = 0 := by have := z.isLt; omega
  rw [hz, Nat.zero_mul, Nat.zero_add]

/-- A broadcast along the last axis: entry (p, q, r) is the operand's entry (p, q, 0). -/
theorem bcastLast_apply {a b c : Nat} (v : (⟨3, ![a, b, 1]⟩ : Shape).Idx → α)
    (h : (⟨3, ![a, b, 1]⟩ : Shape).Broadcasts ⟨3, ![a, b, c]⟩) (p : Fin a) (q : Fin b) (r : Fin c) :
    broadcastTo (⟨3, ![a, b, c]⟩ : Shape) v h (ix3 p q r) = v (ix3 p q (0 : Fin 1)) :=
  broadcastTo_apply v h (ix3 p q r) (ix3 p q (0 : Fin 1)) (fun d => match d with
    | ⟨0, _⟩ => by
        show p.val = if a = 1 then 0 else p.val
        by_cases ha : a = 1
        · rw [if_pos ha]; have := p.isLt; omega
        · rw [if_neg ha]
    | ⟨1, _⟩ => by
        show q.val = if b = 1 then 0 else q.val
        by_cases hb : b = 1
        · rw [if_pos hb]; have := q.isLt; omega
        · rw [if_neg hb]
    | ⟨2, _⟩ => by show 0 = if (1 : Nat) = 1 then 0 else r.val; rw [if_pos rfl])

/-- A broadcast along the first axis: entry (p, q, r) is the operand's entry (0, q, r). -/
theorem bcastFirst_apply {a b c : Nat} (v : (⟨3, ![1, b, c]⟩ : Shape).Idx → α)
    (h : (⟨3, ![1, b, c]⟩ : Shape).Broadcasts ⟨3, ![a, b, c]⟩) (p : Fin a) (q : Fin b) (r : Fin c) :
    broadcastTo (⟨3, ![a, b, c]⟩ : Shape) v h (ix3 p q r) = v (ix3 (0 : Fin 1) q r) :=
  broadcastTo_apply v h (ix3 p q r) (ix3 (0 : Fin 1) q r) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb]
    | ⟨2, _⟩ => by
        show r.val = if c = 1 then 0 else r.val
        by_cases hc : c = 1
        · rw [if_pos hc]; have := r.isLt; omega
        · rw [if_neg hc])

/-- Over the extended reals, the sum along the last axis started from the zero word: entry (p, q) is the finite sum
    over r of the entries (p, q, r). -/
theorem sumLast_apply {a b c : Nat} (v : FVec Ideal (⟨3, ![a, b, c]⟩ : Shape) .f32)
    (h : (⟨3, ![a, b, c]⟩ : Shape).Reduces [(2 : Fin 3)] ⟨2, ![a, b]⟩) (hφ : FKind.Formats .f32)
    (hacc : (0x00000000#32 : BitVec 32) = FKind.add.neutral .f32 hφ) (p : Fin a) (q : Fin b) :
    multiReduction (F := Ideal) .add [(2 : Fin 3)] (⟨2, ![a, b]⟩ : Shape) v 0x00000000#32 h hφ hacc (ix2 p q)
      = ∑ r : Fin c, v (ix3 p q r) := by
  refine (Ideal.multiReduction_add_single v 0x00000000#32 h hφ hacc (ix2 p q)).trans ?_
  show ∑ r : Fin c, v (h.lift (ix2 p q) r) = ∑ r : Fin c, v (ix3 p q r)
  refine Finset.sum_congr rfl fun r _ => congrArg v (funext fun d => Fin.ext ?_)
  match d with
  | ⟨0, _⟩ => rfl
  | ⟨1, _⟩ => rfl
  | ⟨2, _⟩ => rfl

end Idealize.ShloMosaic.Rank3

end
-- ==== Proof.KernelPayload.lean ====
/-
  What the kernel body stores at one entry of a row block, as the mixture's quantities.

  The body works on a block of 32 batch rows.  Its loads are the block's two coordinate planes of the points (32 x 128),
  the seven 128 x 64 tables (weights, the two mean planes, the four covariance planes) and the two 1 x 128 scale rows.
  Each value it computes is read here at one index: the tables at (k, c), the rank-3 intermediates at (p, k, c) — the
  points' planes broadcast along components, the tables along rows —, the three sums along components at (p, k).  With
  the loads identified with the argument arrays at batch row r (the hypotheses of each statement), the entry (p, k) of
  what is stored into the three output blocks is the squashed density and the two remapped gradient coordinates of
  row r, keypoint k.  The kernel spells a negation as a subtraction from the zero word; that is the one law used.
-/
import proofs.«128031_j2284922601915_2_alg».proof.Proof.Gen.KernelIdeal.Skeleton
import proofs.«128031_j2284922601915_2_alg».proof.Proof.Spec
import proofs.«128031_j2284922601915_2_alg».proof.Proof.LibRank2Layout
import proofs.«128031_j2284922601915_2_alg».proof.Proof.LibRank3Layout

noncomputable section

open scoped BigOperators
open Idealize.ShloMosaic Idealize.ShloMosaic.ValueIdx Idealize.ShloMosaic.Rank2 Idealize.ShloMosaic.Rank3
open Cert.MixtureDensity

namespace Cert.KernelIdeal.BlockValue

open Cert.KernelIdeal Cert.KernelIdeal.Gen

/-! ## The tables at (k, c) -/

section Tables
variable (cov : Covs) (x5 x6 x7 x8 : FVec Ideal S128x64 .f32) (k : Fin 128) (c : Fin 64)
  (h5 : x5 (ix2 k c) = cov (ix4 k c (0 : Fin 2) (0 : Fin 2)))
  (h6 : x6 (ix2 k c) = cov (ix4 k c (0 : Fin 2) (1 : Fin 2)))
  (h7 : x7 (ix2 k c) = cov (ix4 k c (1 : Fin 2) (0 : Fin 2)))
  (h8 : x8 (ix2 k c) = cov (ix4 k c (1 : Fin 2) (1 : Fin 2)))

/-- A table viewed at its own shape is the table. -/
theorem plane_self (x : FVec Ideal S128x64 .f32) (h : S128x64.ShapeCasts S128x64) : shapeCast S128x64 x h = x :=
  shapeCast_self x h

include h5 h6 h7 h8 in
/-- The determinant a·d − b·c'. -/
theorem det_apply : k0_pay9 (F := Ideal) x5 x6 x7 x8 (ix2 k c) = det cov k c := by
  unfold k0_pay9 k0_pay5 k0_pay6 k0_pay7 k0_pay8 det
  show shapeCast S128x64 x5 _ (ix2 k c) * shapeCast S128x64 x8 _ (ix2 k c)
      - shapeCast S128x64 x6 _ (ix2 k c) * shapeCast S128x64 x7 _ (ix2 k c) = _
  rw [plane_self, plane_self, plane_self, plane_self, h5, h6, h7, h8]

include h5 h6 h7 h8 in
/-- d / det. -/
theorem inv00_apply : k0_pay10 (F := Ideal) x5 x6 x7 x8 (ix2 k c) = inv00 cov k c := by
  unfold k0_pay10 inv00
  show Ideal.div (k0_pay8 (F := Ideal) x8 (ix2 k c)) (k0_pay9 (F := Ideal) x5 x6 x7 x8 (ix2 k c)) = _
  rw [det_apply cov x5 x6 x7 x8 k c h5 h6 h7 h8]
  unfold k0_pay8
  show Ideal.div (shapeCast S128x64 x8 _ (ix2 k c)) _ = _
  rw [plane_self, h8]

include h5 h6 h7 h8 in
/-- −b / det, the negation spelt 0 − b. -/
theorem inv01_apply : k0_pay11 (F := Ideal) x5 x6 x7 x8 (ix2 k c) = inv01 cov k c := by
  unfold k0_pay11 inv01
  show Ideal.div (Ideal.ofBits .f32 0x00000000#32 - k0_pay6 (F := Ideal) x6 (ix2 k c)) (k0_pay9 (F := Ideal) x5 x6 x7 x8 (ix2 k c)) = _
  rw [det_apply cov x5 x6 x7 x8 k c h5 h6 h7 h8, zeroWord_sub]
  unfold k0_pay6
  show Ideal.div (-(shapeCast S128x64 x6 _ (ix2 k c))) _ = _
  rw [plane_self, h6]

include h5 h6 h7 h8 in
/-- −c' / det. -/
theorem inv10_apply : k0_pay12 (F := Ideal) x5 x6 x7 x8 (ix2 k c) = inv10 cov k c := by
  unfold k0_pay12 inv10
  show Ideal.div (Ideal.ofBits .f32 0x00000000#32 - k0_pay7 (F := Ideal) x7 (ix2 k c)) (k0_pay9 (F := Ideal) x5 x6 x7 x8 (ix2 k c)) = _
  rw [det_apply cov x5 x6 x7 x8 k c h5 h6 h7 h8, zeroWord_sub]
  unfold k0_pay7
  show Ideal.div (-(shapeCast S128x64 x7 _ (ix2 k c))) _ = _
  rw [plane_self, h7]

include h5 h6 h7 h8 in
/-- a / det. -/
theorem inv11_apply : k0_pay13 (F := Ideal) x5 x6 x7 x8 (ix2 k c) = inv11 cov k c := by
  unfold k0_pay13 inv11
  show Ideal.div (k0_pay5 (F := Ideal) x5 (ix2 k c)) (k0_pay9 (F := Ideal) x5 x6 x7 x8 (ix2 k c)) = _
  rw [det_apply cov x5 x6 x7 x8 k c h5 h6 h7 h8]
  unfold k0_pay5
  show Ideal.div (shapeCast S128x64 x5 _ (ix2 k c)) _ = _
  rw [plane_self, h5]

include h5 h6 h7 h8 in
/-- log det. -/
theorem logdet_apply : k0_pay14 (F := Ideal) x5 x6 x7 x8 (ix2 k c) = Ideal.log (det cov k c) := by
  unfold k0_pay14
  show Ideal.log (k0_pay9 (F := Ideal) x5 x6 x7 x8 (ix2 k c)) = _
  rw [det_apply cov x5 x6 x7 x8 k c h5 h6 h7 h8]

end Tables

/-! ## The rank-3 intermediates at (p, k, c) -/

/-- A points plane at its own shape is the plane. -/
theorem rows_self (x : FVec Ideal S32x128 .f32) (h : S32x128.ShapeCasts S32x128) : shapeCast S32x128 x h = x :=
  shapeCast_self x h

/-- A points plane broadcast along components minus a mean plane broadcast along rows: entry (p, k, c) is the
    plane's (p, k) minus the table's (k, c). -/
theorem diff_apply (x : FVec Ideal S32x128 .f32) (y : FVec Ideal S128x64 .f32) (p : Fin 32) (k : Fin 128) (c : Fin 64) :
    k0_pay15 (F := Ideal) x y (ix3 p k c) = x (ix2 p k) - y (ix2 k c) := by
  unfold k0_pay15
  show broadcastTo S32x128x64 (shapeCast S32x128x1 (shapeCast S32x128 x _) _) _ (ix3 p k c)
      - broadcastTo S32x128x64 (shapeCast S1x128x64 (shapeCast S128x64 y _) _) _ (ix3 p k c) = _
  rw [rows_self, plane_self]
  rw [bcastLast_apply, castAddLast_apply, bcastFirst_apply, castAddFirst_apply]

/-- The same for the second coordinate's planes. -/
theorem diff_apply' (x : FVec Ideal S32x128 .f32) (y : FVec Ideal S128x64 .f32) (p : Fin 32) (k : Fin 128) (c : Fin 64) :
    k0_pay16 (F := Ideal) x y (ix3 p k c) = x (ix2 p k) - y (ix2 k c) := by
  unfold k0_pay16
  show broadcastTo S32x128x64 (shapeCast S32x128x1 (shapeCast S32x128 x _) _) _ (ix3 p k c)
      - broadcastTo S32x128x64 (shapeCast S1x128x64 (shapeCast S128x64 y _) _) _ (ix3 p k c) = _
  rw [rows_self, plane_self]
  rw [bcastLast_apply, castAddLast_apply, bcastFirst_apply, castAddFirst_apply]

/-- A table broadcast along rows, at (p, k, c), is the table at (k, c). -/
theorem tableAt (y : FVec Ideal S128x64 .f32) (h : S128x64.ShapeCasts S1x128x64) (h' : S1x128x64.Broadcasts S32x128x64)
    (p : Fin 32) (k : Fin 128) (c : Fin 64) :
    broadcastTo S32x128x64 (shapeCast S1x128x64 y h) h' (ix3 p k c) = y (ix2 k c) := by
  rw [bcastFirst_apply, castAddFirst_apply]

/-- One row of the inverse covariance applied to the displacement: t₀·δ0 + t₁·δ1 with the tables read at (k, c). -/
theorem row0_apply (t0 t1 : FVec Ideal S128x64 .f32) (d0 d1 : FVec Ideal S32x128x64 .f32) (p : Fin 32) (k : Fin 128) (c : Fin 64) :
    k0_pay17 (F := Ideal) t0 t1 d0 d1 (ix3 p k c) = t0 (ix2 k c) * d0 (ix3 p k c) + t1 (ix2 k c) * d1 (ix3 p k c) := by
  unfold k0_pay17
  show broadcastTo S32x128x64 (shapeCast S1x128x64 t0 _) _ (ix3 p k c) * d0 (ix3 p k c)
      + broadcastTo S32x128x64 (shapeCast S1x128x64 t1 _) _ (ix3 p k c) * d1 (ix3 p k c) = _
  rw [tableAt, tableAt]

/-- The other row. -/
theorem row1_apply (t0 t1 : FVec Ideal S128x64 .f32) (d0 d1 : FVec Ideal S32x128x64 .f32) (p : Fin 32) (k : Fin 128) (c : Fin 64) :
    k0_pay18 (F := Ideal) t0 t1 d0 d1 (ix3 p k c) = t0 (ix2 k c) * d0 (ix3 p k c) + t1 (ix2 k c) * d1 (ix3 p k c) := by
  unfold k0_pay18
  show broadcastTo S32x128x64 (shapeCast S1x128x64 t0 _) _ (ix3 p k c) * d0 (ix3 p k c)
      + broadcastTo S32x128x64 (shapeCast S1x128x64 t1 _) _ (ix3 p k c) * d1 (ix3 p k c) = _
  rw [tableAt, tableAt]

/-- The weighted component density at (p, k, c), from the weight table, the four inverse entries, log det and the two
    displacements. -/
theorem weighted_apply (wt i00 i01 i10 i11 ld : FVec Ideal S128x64 .f32) (d0 d1 : FVec Ideal S32x128x64 .f32)
    (p : Fin 32) (k : Fin 128) (c : Fin 64) :
    k0_pay19 (F := Ideal) wt i00 i01 i10 i11 ld d0 d1 (ix3 p k c)
      = wt (ix2 k c) * Ideal.exp (negHalf *
          (((d0 (ix3 p k c) * k0_pay17 (F := Ideal) i00 i01 d0 d1 (ix3 p k c)
              + d1 (ix3 p k c) * k0_pay18 (F := Ideal) i10 i11 d0 d1 (ix3 p k c)) + ld (ix2 k c)) + twoLogTwoPi)) := by
  unfold k0_pay19
  show broadcastTo S32x128x64 (shapeCast S1x128x64 wt _) _ (ix3 p k c) * Ideal.exp (Ideal.ofBits .f32 0xBF000000#32 *
        (((d0 (ix3 p k c) * k0_pay17 (F := Ideal) i00 i01 d0 d1 (ix3 p k c)
            + d1 (ix3 p k c) * k0_pay18 (F := Ideal) i10 i11 d0 d1 (ix3 p k c))
          + broadcastTo S32x128x64 (shapeCast S1x128x64 ld _) _ (ix3 p k c)) + Ideal.ofBits .f32 0x406B3F8E#32)) = _
  rw [tableAt, tableAt]

end Cert.KernelIdeal.BlockValue

end
-- ==== Proof.KernelEntries.lean ====
/-
  The three sums along components, the rescaled gradient and its length, and the entries the body stores.

  With the block's loads identified with the argument arrays at batch row r, entry (p, k) of the density block is the
  squashed density of (r, k) and entry (p, k) of each gradient block is that coordinate of the remapped gradient of
  (r, k): the sums over the 64 components are the finite sums, the negation of each gradient sum is spelt 0 − Σ, and the
  scale rows are broadcast along the block's rows.
-/
import proofs.«128031_j2284922601915_2_alg».proof.Proof.KernelPayload

noncomputable section

open scoped BigOperators
open Idealize.ShloMosaic Idealize.ShloMosaic.ValueIdx Idealize.ShloMosaic.Rank2 Idealize.ShloMosaic.Rank3
open Cert.MixtureDensity

namespace Cert.KernelIdeal.BlockValue

open Cert.KernelIdeal Cert.KernelIdeal.Gen

/-! ## Generic in the loaded values: the sums and the scale rows -/

section Generic
variable (wt i00 i01 i10 i11 ld : FVec Ideal S128x64 .f32) (d0 d1 : FVec Ideal S32x128x64 .f32)
  (s0 s1 : FVec Ideal S1x128 .f32) (p : Fin 32) (k : Fin 128)

/-- The density sum: over the 64 components of the weighted component densities. -/
theorem sumTerm_apply :
    k0_pay20 (F := Ideal) wt i00 i01 i10 i11 ld d0 d1 (ix2 p k)
      = ∑ c : Fin 64, k0_pay19 (F := Ideal) wt i00 i01 i10 i11 ld d0 d1 (ix3 p k c) := by
  unfold k0_pay20
  exact sumLast_apply (k0_pay19 (F := Ideal) wt i00 i01 i10 i11 ld d0 d1) reduces_S32x128x64_S32x128 (.inl rfl) rfl p k

/-- A scale row broadcast along the block's rows, at (p, k), is the row at (0, k). -/
theorem scaleAt (s : FVec Ideal S1x128 .f32) (h : S1x128.ShapeCasts S1x128) (h' : S1x128.Broadcasts S32x128) :
    broadcastTo S32x128 (shapeCast S1x128 s h) h' (ix2 p k) = s (ix2 (0 : Fin 1) k) := by
  rw [shapeCast_self, bcastRow_apply]

/-- The first rescaled gradient coordinate: (0 − Σ_c term · row₀) · scale row. -/
theorem scaled0_apply :
    k0_pay21 (F := Ideal) wt i00 i01 i10 i11 ld d0 d1 s0 (ix2 p k)
      = (Ideal.ofBits .f32 0x00000000#32
          - ∑ c : Fin 64, k0_pay19 (F := Ideal) wt i00 i01 i10 i11 ld d0 d1 (ix3 p k c) * k0_pay17 (F := Ideal) i00 i01 d0 d1 (ix3 p k c))
        * s0 (ix2 (0 : Fin 1) k) := by
  unfold k0_pay21
  show (Ideal.ofBits .f32 0x00000000#32
        - multiReduction (F := Ideal) .add [(2 : Fin 3)] S32x128
            (mulf (k0_pay19 (F := Ideal) wt i00 i01 i10 i11 ld d0 d1) (k0_pay17 (F := Ideal) i00 i01 d0 d1)) 0x00000000#32
            reduces_S32x128x64_S32x128 (.inl rfl) rfl (ix2 p k))
      * broadcastTo S32x128 (shapeCast S1x128 s0 _) _ (ix2 p k) = _
  rw [scaleAt]
  exact congrArg (fun t => (Ideal.ofBits .f32 0x00000000#32 - t) * s0 (ix2 (0 : Fin 1) k))
    (sumLast_apply (mulf (k0_pay19 (F := Ideal) wt i00 i01 i10 i11 ld d0 d1) (k0_pay17 (F := Ideal) i00 i01 d0 d1))
      reduces_S32x128x64_S32x128 (.inl rfl) rfl p k)

/-- The second rescaled gradient coordinate. -/
theorem scaled1_apply :
    k0_pay22 (F := Ideal) wt i00 i01 i10 i11 ld d0 d1 s1 (ix2 p k)
      = (Ideal.ofBits .f32 0x00000000#32
          - ∑ c : Fin 64, k0_pay19 (F := Ideal) wt i00 i01 i10 i11 ld d0 d1 (ix3 p k c) * k0_pay18 (F := Ideal) i10 i11 d0 d1 (ix3 p k c))
        * s1 (ix2 (0 : Fin 1) k) := by
  unfold k0_pay22
  show (Ideal.ofBits .f32 0x00000000#32
        - multiReduction (F := Ideal) .add [(2 : Fin 3)] S32x128
            (mulf (k0_pay19 (F := Ideal) wt i00 i01 i10 i11 ld d0 d1) (k0_pay18 (F := Ideal) i10 i11 d0 d1)) 0x00000000#32
            reduces_S32x128x64_S32x128 (.inl rfl) rfl (ix2 p k))
      * broadcastTo S32x128 (shapeCast S1x128 s1 _) _ (ix2 p k) = _
  rw [scaleAt]
  exact congrArg (fun t => (Ideal.ofBits .f32 0x00000000#32 - t) * s1 (ix2 (0 : Fin 1) k))
    (sumLast_apply (mulf (k0_pay19 (F := Ideal) wt i00 i01 i10 i11 ld d0 d1) (k0_pay18 (F := Ideal) i10 i11 d0 d1))
      reduces_S32x128x64_S32x128 (.inl rfl) rfl p k)

/-- The length of the rescaled gradient. -/
theorem len_apply :
    k0_pay23 (F := Ideal) wt i00 i01 i10 i11 ld d0 d1 s0 s1 (ix2 p k)
      = Ideal.sqrt (k0_pay21 (F := Ideal) wt i00 i01 i10 i11 ld d0 d1 s0 (ix2 p k) * k0_pay21 (F := Ideal) wt i00 i01 i10 i11 ld d0 d1 s0 (ix2 p k)
          + k0_pay22 (F := Ideal) wt i00 i01 i10 i11 ld d0 d1 s1 (ix2 p k) * k0_pay22 (F := Ideal) wt i00 i01 i10 i11 ld d0 d1 s1 (ix2 p k)) := rfl

end Generic

/-- The magnitude from the length: exp((0 − ν + 5500) / 1100). -/
theorem mag_apply (v : FVec Ideal S32x128 .f32) (i : S32x128.Idx) :
    k0_pay1 (F := Ideal) v i = Ideal.exp (Ideal.div ((Ideal.ofBits .f32 0x00000000#32 - v i) + magShift) magScale) := rfl

/-- A stored gradient coordinate: (γ / ν) · magnitude. -/
theorem remap_apply (g v : FVec Ideal S32x128 .f32) (i : S32x128.Idx) :
    k0_pay2 (F := Ideal) g v i = Ideal.div (g i) (v i) * k0_pay1 (F := Ideal) v i := rfl
theorem remap_apply' (g v : FVec Ideal S32x128 .f32) (i : S32x128.Idx) :
    k0_pay3 (F := Ideal) g v i = Ideal.div (g i) (v i) * k0_pay1 (F := Ideal) v i := rfl

/-- The stored density: logistic((pdf − ½) / ½). -/
theorem squash_apply (v : FVec Ideal S32x128 .f32) (i : S32x128.Idx) :
    k0_pay4 (F := Ideal) v i = Ideal.logistic (Ideal.div (v i + negHalf) half) := rfl

/-! ## With the loads identified with the argument arrays at batch row r -/

section AtRow
variable (z : Points) (w : Weights) (mu : Means) (cov : Covs) (sc : Scales) (r : Fin 4096) (p : Fin 32)
  (x0 x1 : FVec Ideal S32x128 .f32) (x2 x3 x4 x5 x6 x7 x8 : FVec Ideal S128x64 .f32) (x9 x10 : FVec Ideal S1x128 .f32)
  (h0 : ∀ k : Fin 128, x0 (ix2 p k) = z (ix3 r k (0 : Fin 2)))
  (h1 : ∀ k : Fin 128, x1 (ix2 p k) = z (ix3 r k (1 : Fin 2)))
  (h2 : ∀ (k : Fin 128) (c : Fin 64), x2 (ix2 k c) = w (ix2 k c))
  (h3 : ∀ (k : Fin 128) (c : Fin 64), x3 (ix2 k c) = mu (ix3 k c (0 : Fin 2)))
  (h4 : ∀ (k : Fin 128) (c : Fin 64), x4 (ix2 k c) = mu (ix3 k c (1 : Fin 2)))
  (h5 : ∀ (k : Fin 128) (c : Fin 64), x5 (ix2 k c) = cov (ix4 k c (0 : Fin 2) (0 : Fin 2)))
  (h6 : ∀ (k : Fin 128) (c : Fin 64), x6 (ix2 k c) = cov (ix4 k c (0 : Fin 2) (1 : Fin 2)))
  (h7 : ∀ (k : Fin 128) (c : Fin 64), x7 (ix2 k c) = cov (ix4 k c (1 : Fin 2) (0 : Fin 2)))
  (h8 : ∀ (k : Fin 128) (c : Fin 64), x8 (ix2 k c) = cov (ix4 k c (1 : Fin 2) (1 : Fin 2)))
  (h9 : ∀ k : Fin 128, x9 (ix2 (0 : Fin 1) k) = sc (ix2 k (0 : Fin 2)))
  (h10 : ∀ k : Fin 128, x10 (ix2 (0 : Fin 1) k) = sc (ix2 k (1 : Fin 2)))
  (k : Fin 128)

/-- The seven values the sums are taken over, as the body names them from its loads. -/
abbrev T00 := k0_pay10 (F := Ideal) x5 x6 x7 x8
abbrev T01 := k0_pay11 (F := Ideal) x5 x6 x7 x8
abbrev T10 := k0_pay12 (F := Ideal) x5 x6 x7 x8
abbrev T11 := k0_pay13 (F := Ideal) x5 x6 x7 x8
abbrev TL := k0_pay14 (F := Ideal) x5 x6 x7 x8
abbrev D0 := k0_pay15 (F := Ideal) x0 x3
abbrev D1 := k0_pay16 (F := Ideal) x1 x4

include h0 h3 in
theorem disp0_entry (c : Fin 64) : D0 x0 x3 (ix3 p k c) = disp0 z mu r k c := by
  show k0_pay15 (F := Ideal) x0 x3 (ix3 p k c) = _
  rw [diff_apply, h0, h3]; rfl

include h1 h4 in
theorem disp1_entry (c : Fin 64) : D1 x1 x4 (ix3 p k c) = disp1 z mu r k c := by
  show k0_pay16 (F := Ideal) x1 x4 (ix3 p k c) = _
  rw [diff_apply', h1, h4]; rfl

include h0 h1 h3 h4 h5 h6 h7 h8 in
theorem sol0_entry (c : Fin 64) :
    k0_pay17 (F := Ideal) (T00 x5 x6 x7 x8) (T01 x5 x6 x7 x8) (D0 x0 x3) (D1 x1 x4) (ix3 p k c) = sol0 z mu cov r k c := by
  rw [row0_apply, disp0_entry z mu r p x0 x3 h0 h3 k c, disp1_entry z mu r p x1 x4 h1 h4 k c]
  show k0_pay10 (F := Ideal) x5 x6 x7 x8 (ix2 k c) * _ + k0_pay11 (F := Ideal) x5 x6 x7 x8 (ix2 k c) * _ = _
  rw [inv00_apply cov x5 x6 x7 x8 k c (h5 k c) (h6 k c) (h7 k c) (h8 k c),
    inv01_apply cov x5 x6 x7 x8 k c (h5 k c) (h6 k c) (h7 k c) (h8 k c)]
  rfl

include h0 h1 h3 h4 h5 h6 h7 h8 in
theorem sol1_entry (c : Fin 64) :
    k0_pay18 (F := Ideal) (T10 x5 x6 x7 x8) (T11 x5 x6 x7 x8) (D0 x0 x3) (D1 x1 x4) (ix3 p k c) = sol1 z mu cov r k c := by
  rw [row1_apply, disp0_entry z mu r p x0 x3 h0 h3 k c, disp1_entry z mu r p x1 x4 h1 h4 k c]
  show k0_pay12 (F := Ideal) x5 x6 x7 x8 (ix2 k c) * _ + k0_pay13 (F := Ideal) x5 x6 x7 x8 (ix2 k c) * _ = _
  rw [inv10_apply cov x5 x6 x7 x8 k c (h5 k c) (h6 k c) (h7 k c) (h8 k c),
    inv11_apply cov x5 x6 x7 x8 k c (h5 k c) (h6 k c) (h7 k c) (h8 k c)]
  rfl

include h0 h1 h2 h3 h4 h5 h6 h7 h8 in
theorem term_entry (c : Fin 64) :
    k0_pay19 (F := Ideal) x2 (T00 x5 x6 x7 x8) (T01 x5 x6 x7 x8) (T10 x5 x6 x7 x8) (T11 x5 x6 x7 x8) (TL x5 x6 x7 x8)
        (D0 x0 x3) (D1 x1 x4) (ix3 p k c) = term z w mu cov r k c := by
  rw [weighted_apply,
    sol0_entry z mu cov r p x0 x1 x3 x4 x5 x6 x7 x8 h0 h1 h3 h4 h5 h6 h7 h8 k c,
    sol1_entry z mu cov r p x0 x1 x3 x4 x5 x6 x7 x8 h0 h1 h3 h4 h5 h6 h7 h8 k c,
    disp0_entry z mu r p x0 x3 h0 h3 k c, disp1_entry z mu r p x1 x4 h1 h4 k c, h2]
  show _ * Ideal.exp (negHalf * ((_ + k0_pay14 (F := Ideal) x5 x6 x7 x8 (ix2 k c)) + twoLogTwoPi)) = _
  rw [logdet_apply cov x5 x6 x7 x8 k c (h5 k c) (h6 k c) (h7 k c) (h8 k c)]
  rfl

include h0 h1 h2 h3 h4 h5 h6 h7 h8 in
/-- The density sum is the mixture's density at (r, k). -/
theorem pdf_entry :
    k0_pay20 (F := Ideal) x2 (T00 x5 x6 x7 x8) (T01 x5 x6 x7 x8) (T10 x5 x6 x7 x8) (T11 x5 x6 x7 x8) (TL x5 x6 x7 x8)
        (D0 x0 x3) (D1 x1 x4) (ix2 p k) = pdf z w mu cov r k := by
  rw [sumTerm_apply]
  unfold pdf
  exact Finset.sum_congr rfl fun c _ => term_entry z w mu cov r p x0 x1 x2 x3 x4 x5 x6 x7 x8 h0 h1 h2 h3 h4 h5 h6 h7 h8 k c

include h0 h1 h2 h3 h4 h5 h6 h7 h8 h9 in
/-- The first rescaled gradient coordinate at (r, k). -/
theorem scaled0_entry :
    k0_pay21 (F := Ideal) x2 (T00 x5 x6 x7 x8) (T01 x5 x6 x7 x8) (T10 x5 x6 x7 x8) (T11 x5 x6 x7 x8) (TL x5 x6 x7 x8)
        (D0 x0 x3) (D1 x1 x4) x9 (ix2 p k) = scaled0 z w mu cov sc r k := by
  have hs : ∀ c : Fin 64,
      k0_pay19 (F := Ideal) x2 (T00 x5 x6 x7 x8) (T01 x5 x6 x7 x8) (T10 x5 x6 x7 x8) (T11 x5 x6 x7 x8) (TL x5 x6 x7 x8)
          (D0 x0 x3) (D1 x1 x4) (ix3 p k c)
        * k0_pay17 (F := Ideal) (T00 x5 x6 x7 x8) (T01 x5 x6 x7 x8) (D0 x0 x3) (D1 x1 x4) (ix3 p k c)
        = term z w mu cov r k c * sol0 z mu cov r k c := fun c => by
    rw [term_entry z w mu cov r p x0 x1 x2 x3 x4 x5 x6 x7 x8 h0 h1 h2 h3 h4 h5 h6 h7 h8 k c,
      sol0_entry z mu cov r p x0 x1 x3 x4 x5 x6 x7 x8 h0 h1 h3 h4 h5 h6 h7 h8 k c]
  rw [scaled0_apply, zeroWord_sub, h9, Finset.sum_congr rfl (fun c _ => hs c)]
  rfl

include h0 h1 h2 h3 h4 h5 h6 h7 h8 h10 in
/-- The second rescaled gradient coordinate at (r, k). -/
theorem scaled1_entry :
    k0_pay22 (F := Ideal) x2 (T00 x5 x6 x7 x8) (T01 x5 x6 x7 x8) (T10 x5 x6 x7 x8) (T11 x5 x6 x7 x8) (TL x5 x6 x7 x8)
        (D0 x0 x3) (D1 x1 x4) x10 (ix2 p k) = scaled1 z w mu cov sc r k := by
  have hs : ∀ c : Fin 64,
      k0_pay19 (F := Ideal) x2 (T00 x5 x6 x7 x8) (T01 x5 x6 x7 x8) (T10 x5 x6 x7 x8) (T11 x5 x6 x7 x8) (TL x5 x6 x7 x8)
          (D0 x0 x3) (D1 x1 x4) (ix3 p k c)
        * k0_pay18 (F := Ideal) (T10 x5 x6 x7 x8) (T11 x5 x6 x7 x8) (D0 x0 x3) (D1 x1 x4) (ix3 p k c)
        = term z w mu cov r k c * sol1 z mu cov r k c := fun c => by
    rw [term_entry z w mu cov r p x0 x1 x2 x3 x4 x5 x6 x7 x8 h0 h1 h2 h3 h4 h5 h6 h7 h8 k c,
      sol1_entry z mu cov r p x0 x1 x3 x4 x5 x6 x7 x8 h0 h1 h3 h4 h5 h6 h7 h8 k c]
  rw [scaled1_apply, zeroWord_sub, h10, Finset.sum_congr rfl (fun c _ => hs c)]
  rfl

include h0 h1 h2 h3 h4 h5 h6 h7 h8 h9 h10 in
/-- The rescaled gradient's length at (r, k). -/
theorem len_entry :
    k0_pay23 (F := Ideal) x2 (T00 x5 x6 x7 x8) (T01 x5 x6 x7 x8) (T10 x5 x6 x7 x8) (T11 x5 x6 x7 x8) (TL x5 x6 x7 x8)
        (D0 x0 x3) (D1 x1 x4) x9 x10 (ix2 p k) = len z w mu cov sc r k := by
  rw [len_apply,
    scaled0_entry z w mu cov sc r p x0 x1 x2 x3 x4 x5 x6 x7 x8 x9 h0 h1 h2 h3 h4 h5 h6 h7 h8 h9 k,
    scaled1_entry z w mu cov sc r p x0 x1 x2 x3 x4 x5 x6 x7 x8 x10 h0 h1 h2 h3 h4 h5 h6 h7 h8 h10 k]
  rfl

/-- The length as the body names it from its loads. -/
abbrev Nu := k0_pay23 (F := Ideal) x2 (T00 x5 x6 x7 x8) (T01 x5 x6 x7 x8) (T10 x5 x6 x7 x8) (T11 x5 x6 x7 x8) (TL x5 x6 x7 x8)
  (D0 x0 x3) (D1 x1 x4) x9 x10

include h0 h1 h2 h3 h4 h5 h6 h7 h8 h9 h10 in
/-- The magnitude at (r, k), the negated length spelt 0 − ν. -/
theorem mag_entry : k0_pay1 (F := Ideal) (Nu x0 x1 x2 x3 x4 x5 x6 x7 x8 x9 x10) (ix2 p k) = mag z w mu cov sc r k := by
  rw [mag_apply, zeroWord_sub]
  show Ideal.exp (Ideal.div (-(k0_pay23 (F := Ideal) x2 (T00 x5 x6 x7 x8) (T01 x5 x6 x7 x8) (T10 x5 x6 x7 x8) (T11 x5 x6 x7 x8)
    (TL x5 x6 x7 x8) (D0 x0 x3) (D1 x1 x4) x9 x10 (ix2 p k)) + magShift) magScale) = _
  rw [len_entry z w mu cov sc r p x0 x1 x2 x3 x4 x5 x6 x7 x8 x9 x10 h0 h1 h2 h3 h4 h5 h6 h7 h8 h9 h10 k]
  rfl

include h0 h1 h2 h3 h4 h5 h6 h7 h8 in
/-- WHAT IS STORED INTO THE DENSITY BLOCK at (p, k): the squashed density of (r, k). -/
theorem density_entry :
    k0_pay4 (F := Ideal) (k0_pay20 (F := Ideal) x2 (T00 x5 x6 x7 x8) (T01 x5 x6 x7 x8) (T10 x5 x6 x7 x8) (T11 x5 x6 x7 x8)
        (TL x5 x6 x7 x8) (D0 x0 x3) (D1 x1 x4)) (ix2 p k) = density z w mu cov r k := by
  rw [squash_apply, pdf_entry z w mu cov r p x0 x1 x2 x3 x4 x5 x6 x7 x8 h0 h1 h2 h3 h4 h5 h6 h7 h8 k]
  rfl

include h0 h1 h2 h3 h4 h5 h6 h7 h8 h9 h10 in
/-- WHAT IS STORED INTO THE FIRST GRADIENT BLOCK at (p, k): the first remapped gradient coordinate of (r, k). -/
theorem remap0_entry :
    k0_pay2 (F := Ideal) (k0_pay21 (F := Ideal) x2 (T00 x5 x6 x7 x8) (T01 x5 x6 x7 x8) (T10 x5 x6 x7 x8) (T11 x5 x6 x7 x8)
        (TL x5 x6 x7 x8) (D0 x0 x3) (D1 x1 x4) x9) (Nu x0 x1 x2 x3 x4 x5 x6 x7 x8 x9 x10) (ix2 p k)
      = remap0 z w mu cov sc r k := by
  rw [remap_apply, mag_entry z w mu cov sc r p x0 x1 x2 x3 x4 x5 x6 x7 x8 x9 x10 h0 h1 h2 h3 h4 h5 h6 h7 h8 h9 h10 k,
    scaled0_entry z w mu cov sc r p x0 x1 x2 x3 x4 x5 x6 x7 x8 x9 h0 h1 h2 h3 h4 h5 h6 h7 h8 h9 k]
  show Ideal.div _ (k0_pay23 (F := Ideal) x2 (T00 x5 x6 x7 x8) (T01 x5 x6 x7 x8) (T10 x5 x6 x7 x8) (T11 x5 x6 x7 x8)
    (TL x5 x6 x7 x8) (D0 x0 x3) (D1 x1 x4) x9 x10 (ix2 p k)) * _ = _
  rw [len_entry z w mu cov sc r p x0 x1 x2 x3 x4 x5 x6 x7 x8 x9 x10 h0 h1 h2 h3 h4 h5 h6 h7 h8 h9 h10 k]
  rfl

include h0 h1 h2 h3 h4 h5 h6 h7 h8 h9 h10 in
/-- WHAT IS STORED INTO THE SECOND GRADIENT BLOCK at (p, k): the second remapped gradient coordinate of (r, k). -/
theorem remap1_entry :
    k0_pay3 (F := Ideal) (k0_pay22 (F := Ideal) x2 (T00 x5 x6 x7 x8) (T01 x5 x6 x7 x8) (T10 x5 x6 x7 x8) (T11 x5 x6 x7 x8)
        (TL x5 x6 x7 x8) (D0 x0 x3) (D1 x1 x4) x10) (Nu x0 x1 x2 x3 x4 x5 x6 x7 x8 x9 x10) (ix2 p k)
      = remap1 z w mu cov sc r k := by
  rw [remap_apply', mag_entry z w mu cov sc r p x0 x1 x2 x3 x4 x5 x6 x7 x8 x9 x10 h0 h1 h2 h3 h4 h5 h6 h7 h8 h9 h10 k,
    scaled1_entry z w mu cov sc r p x0 x1 x2 x3 x4 x5 x6 x7 x8 x10 h0 h1 h2 h3 h4 h5 h6 h7 h8 h10 k]
  show Ideal.div _ (k0_pay23 (F := Ideal) x2 (T00 x5 x6 x7 x8) (T01 x5 x6 x7 x8) (T10 x5 x6 x7 x8) (T11 x5 x6 x7 x8)
    (TL x5 x6 x7 x8) (D0 x0 x3) (D1 x1 x4) x9 x10 (ix2 p k)) * _ = _
  rw [len_entry z w mu cov sc r p x0 x1 x2 x3 x4 x5 x6 x7 x8 x9 x10 h0 h1 h2 h3 h4 h5 h6 h7 h8 h9 h10 k]
  rfl

end AtRow

end Cert.KernelIdeal.BlockValue

end
-- ==== Proof.KernelArrays.lean ====
/-
  From blocks to arrays: what the region leaves in its three output arrays.

  Grid point t computes, from rows 32·t … 32·t + 31 of the point planes and the whole tables, a 32 x 128 block of each
  output and writes it back to rows 32·t … 32·t + 31.  Entry (p, k) of the block is the mixture's quantity at batch row
  32·t + p and keypoint k, so the block is a restriction of ONE function of the argument arrays; the 128 blocks tile the
  4096 rows (row r is in block r / 32); hence each output array ends holding that function: the squashed density, and
  the two remapped gradient coordinates, at (row, keypoint).
-/
import proofs.«128031_j2284922601915_2_alg».proof.Proof.KernelInputs
import proofs.«128031_j2284922601915_2_alg».proof.Proof.KernelEntries
import Idealize.ShloMosaic.Lib.Pipeline.Value

noncomputable section

open Idealize.ShloMosaic Idealize.ShloMosaic.TcCoe Idealize.SL.Sem Idealize.ShloMosaic.ValueIdx
open Idealize.ShloMosaic.Pipeline (Dat)
open Cert.MixtureDensity

namespace Cert.KernelIdeal.Arrays

open Cert.KernelIdeal Cert.KernelIdeal.Gen Cert.KernelIdeal.Inputs Cert.KernelIdeal.BlockValue

variable (m : (ℓ : Loc nD τ sig) → Buf (Elt Ideal) ℓ)

/-- The five argument arrays as the region's device holds them. -/
abbrev argZ (c : Dev nD) : Points := m ((c : Thread nD τ).loc main_arg0)
abbrev argW (c : Dev nD) : Weights := m ((c : Thread nD τ).loc main_arg1)
abbrev argMu (c : Dev nD) : Means := m ((c : Thread nD τ).loc main_arg2)
abbrev argCov (c : Dev nD) : Covs := m ((c : Thread nD τ).loc main_arg3)
abbrev argSc (c : Dev nD) : Scales := m ((c : Thread nD τ).loc main_arg4)

/-- What the three output arrays [4096, 128] end holding, as functions of the argument arrays. -/
def densityArr (c : Dev nD) : S4096x128.Idx → EReal := fun i =>
  density (argZ m c) (argW m c) (argMu m c) (argCov m c) (i 0) (i 1)
def remap0Arr (c : Dev nD) : S4096x128.Idx → EReal := fun i =>
  remap0 (argZ m c) (argW m c) (argMu m c) (argCov m c) (argSc m c) (i 0) (i 1)
def remap1Arr (c : Dev nD) : S4096x128.Idx → EReal := fun i =>
  remap1 (argZ m c) (argW m c) (argMu m c) (argCov m c) (argSc m c) (i 0) (i 1)

theorem hz : (![0, 0] : Fin 2 → Nat) = fun _ => 0 := funext fun a => by fin_cases a <;> rfl

/-- WHAT GRID POINT t WRITES BACK into output 0 is block t of the squashed density. -/
theorem flushed11_eq (c : Dev nD) (t : Fin cfg0.N) :
    (dats m 0 c).flushed 11 t = ((cfg0.win 11).blk t).view.read (Elt Ideal) (densityArr m c) := by
  show (cfg0.win 11).cut (grid0.coords t) ((dats m 0 c).after 11 t) = _
  rw [after0_11]
  unfold out0_11
  rw [View.canon_unit_zero hz]
  simp only [View.ld_unit_zero (S := S32x128) hz, View.ld_unit_zero (S := S128x64) hz, View.ld_unit_zero (S := S1x128) hz]
  refine funext fun (j : S32x128.Idx) => ?_
  obtain ⟨p, k, rfl⟩ : ∃ (p : Fin 32) (k : Fin 128), j = ix2 p k := ⟨j 0, j 1, eq_ix2 j⟩
  rw [View.read_apply, emb_out11]
  exact density_entry (argZ m c) (argW m c) (argMu m c) (argCov m c) (rowOf t p) p (iblk m c 0 t) (iblk m c 1 t) (iblk m c 2 t) (iblk m c 3 t) (iblk m c 4 t) (iblk m c 5 t) (iblk m c 6 t) (iblk m c 7 t) (iblk m c 8 t)
    (fun k => in0 m c t p k) (fun k => in1 m c t p k) (fun k j => in2 m c t k j) (fun k j => in3 m c t k j) (fun k j => in4 m c t k j) (fun k j => in5 m c t k j) (fun k j => in6 m c t k j) (fun k j => in7 m c t k j) (fun k j => in8 m c t k j) k

/-- An index of the array is in grid point t's block iff each coordinate is in the block's range on its axis. -/
theorem mem_blk11 (t : Fin cfg0.N) (i : S4096x128.Idx) :
    i ∈ ((cfg0.win 11).blk t).view.set ↔ ∀ a : Fin 2, win0_11.index t a * S32x128.size a ≤ (i a).val
      ∧ (i a).val < win0_11.index t a * S32x128.size a + S32x128.size a := by
  show i ∈ ((View.whole main_v22_0).slice (win0_11.rect t)).set ↔ _
  rw [View.set_slice_whole, Rect.mem_set_unit]
  exact Iff.rfl

/-- Row r of the array lies in the block of grid point r / 32, and that point writes its block back. -/
theorem cover11 (i : S4096x128.Idx) :
    ∃ t : Fin cfg0.N, (cfg0.win 11).flush t = true ∧ i ∈ ((cfg0.win 11).blk t).view.set := by
  have hN : cfg0.N = 128 := N_0
  have hi0 : (i 0).val < 4096 := (i 0).isLt
  have hi1 : (i 1).val < 128 := (i 1).isLt
  obtain ⟨t, ht⟩ : ∃ t : Fin cfg0.N, t.val = (i 0).val / 32 := ⟨⟨(i 0).val / 32, by omega⟩, rfl⟩
  obtain ⟨-, -, -, -, -, -, -, -, -, -, -, ⟨e0, e1⟩, -⟩ := idx_facts t
  refine ⟨t, flush0_11 t, ?_⟩
  rw [mem_blk11]
  intro a
  match a with
  | ⟨0, _⟩ =>
    show win0_11.index t (0 : Fin 2) * 32 ≤ (i 0).val ∧ (i 0).val < win0_11.index t (0 : Fin 2) * 32 + 32
    omega
  | ⟨1, _⟩ =>
    show win0_11.index t (1 : Fin 2) * 128 ≤ (i 1).val ∧ (i 1).val < win0_11.index t (1 : Fin 2) * 128 + 128
    omega

/-- THE ARRAY after the region. -/
theorem final11 (c : Dev nD) : (dats m 0 c).arrAt 11 cfg0.N = densityArr m c :=
  (dats m 0 c).arrAt_eq_of_cover 11 (densityArr m c) (fun t _ => flushed11_eq m c t) (cover11)

/-- WHAT GRID POINT t WRITES BACK into output 1 is block t of the first remapped gradient coordinate. -/
theorem flushed12_eq (c : Dev nD) (t : Fin cfg0.N) :
    (dats m 0 c).flushed 12 t = ((cfg0.win 12).blk t).view.read (Elt Ideal) (remap0Arr m c) := by
  show (cfg0.win 12).cut (grid0.coords t) ((dats m 0 c).after 12 t) = _
  rw [after0_12]
  unfold out0_12
  rw [View.canon_unit_zero hz]
  simp only [View.ld_unit_zero (S := S32x128) hz, View.ld_unit_zero (S := S128x64) hz, View.ld_unit_zero (S := S1x128) hz]
  refine funext fun (j : S32x128.Idx) => ?_
  obtain ⟨p, k, rfl⟩ : ∃ (p : Fin 32) (k : Fin 128), j = ix2 p k := ⟨j 0, j 1, eq_ix2 j⟩
  rw [View.read_apply, emb_out12]
  exact remap0_entry (argZ m c) (argW m c) (argMu m c) (argCov m c) (argSc m c) (rowOf t p) p (iblk m c 0 t) (iblk m c 1 t) (iblk m c 2 t) (iblk m c 3 t) (iblk m c 4 t) (iblk m c 5 t) (iblk m c 6 t) (iblk m c 7 t) (iblk m c 8 t) (iblk m c 9 t) (iblk m c 10 t)
    (fun k => in0 m c t p k) (fun k => in1 m c t p k) (fun k j => in2 m c t k j) (fun k j => in3 m c t k j) (fun k j => in4 m c t k j) (fun k j => in5 m c t k j) (fun k j => in6 m c t k j) (fun k j => in7 m c t k j) (fun k j => in8 m c t k j) (fun k => in9 m c t k) (fun k => in10 m c t k) k

/-- An index of the array is in grid point t's block iff each coordinate is in the block's range on its axis. -/
theorem mem_blk12 (t : Fin cfg0.N) (i : S4096x128.Idx) :
    i ∈ ((cfg0.win 12).blk t).view.set ↔ ∀ a : Fin 2, win0_12.index t a * S32x128.size a ≤ (i a).val
      ∧ (i a).val < win0_12.index t a * S32x128.size a + S32x128.size a := by
  show i ∈ ((View.whole main_v22_1).slice (win0_12.rect t)).set ↔ _
  rw [View.set_slice_whole, Rect.mem_set_unit]
  exact Iff.rfl

/-- Row r of the array lies in the block of grid point r / 32, and that point writes its block back. -/
theorem cover12 (i : S4096x128.Idx) :
    ∃ t : Fin cfg0.N, (cfg0.win 12).flush t = true ∧ i ∈ ((cfg0.win 12).blk t).view.set := by
  have hN : cfg0.N = 128 := N_0
  have hi0 : (i 0).val < 4096 := (i 0).isLt
  have hi1 : (i 1).val < 128 := (i 1).isLt
  obtain ⟨t, ht⟩ : ∃ t : Fin cfg0.N, t.val = (i 0).val / 32 := ⟨⟨(i 0).val / 32, by omega⟩, rfl⟩
  obtain ⟨-, -, -, -, -, -, -, -, -, -, -, -, ⟨e0, e1⟩, -⟩ := idx_facts t
  refine ⟨t, flush0_12 t, ?_⟩
  rw [mem_blk12]
  intro a
  match a with
  | ⟨0, _⟩ =>
    show win0_12.index t (0 : Fin 2) * 32 ≤ (i 0).val ∧ (i 0).val < win0_12.index t (0 : Fin 2) * 32 + 32
    omega
  | ⟨1, _⟩ =>
    show win0_12.index t (1 : Fin 2) * 128 ≤ (i 1).val ∧ (i 1).val < win0_12.index t (1 : Fin 2) * 128 + 128
    omega

/-- THE ARRAY after the region. -/
theorem final12 (c : Dev nD) : (dats m 0 c).arrAt 12 cfg0.N = remap0Arr m c :=
  (dats m 0 c).arrAt_eq_of_cover 12 (remap0Arr m c) (fun t _ => flushed12_eq m c t) (cover12)

/-- WHAT GRID POINT t WRITES BACK into output 2 is block t of the second remapped gradient coordinate. -/
theorem flushed13_eq (c : Dev nD) (t : Fin cfg0.N) :
    (dats m 0 c).flushed 13 t = ((cfg0.win 13).blk t).view.read (Elt Ideal) (remap1Arr m c) := by
  show (cfg0.win 13).cut (grid0.coords t) ((dats m 0 c).after 13 t) = _
  rw [after0_13]
  unfold out0_13
  rw [View.canon_unit_zero hz]
  simp only [View.ld_unit_zero (S := S32x128) hz, View.ld_unit_zero (S := S128x64) hz, View.ld_unit_zero (S := S1x128) hz]
  refine funext fun (j : S32x128.Idx) => ?_
  obtain ⟨p, k, rfl⟩ : ∃ (p : Fin 32) (k : Fin 128), j = ix2 p k := ⟨j 0, j 1, eq_ix2 j⟩
  rw [View.read_apply, emb_out13]
  exact remap1_entry (argZ m c) (argW m c) (argMu m c) (argCov m c) (argSc m c) (rowOf t p) p (iblk m c 0 t) (iblk m c 1 t) (iblk m c 2 t) (iblk m c 3 t) (iblk m c 4 t) (iblk m c 5 t) (iblk m c 6 t) (iblk m c 7 t) (iblk m c 8 t) (iblk m c 9 t) (iblk m c 10 t)
    (fun k => in0 m c t p k) (fun k => in1 m c t p k) (fun k j => in2 m c t k j) (fun k j => in3 m c t k j) (fun k j => in4 m c t k j) (fun k j => in5 m c t k j) (fun k j => in6 m c t k j) (fun k j => in7 m c t k j) (fun k j => in8 m c t k j) (fun k => in9 m c t k) (fun k => in10 m c t k) k

/-- An index of the array is in grid point t's block iff each coordinate is in the block's range on its axis. -/
theorem mem_blk13 (t : Fin cfg0.N) (i : S4096x128.Idx) :
    i ∈ ((cfg0.win 13).blk t).view.set ↔ ∀ a : Fin 2, win0_13.index t a * S32x128.size a ≤ (i a).val
      ∧ (i a).val < win0_13.index t a * S32x128.size a + S32x128.size a := by
  show i ∈ ((View.whole main_v22_2).slice (win0_13.rect t)).set ↔ _
  rw [View.set_slice_whole, Rect.mem_set_unit]
  exact Iff.rfl

/-- Row r of the array lies in the block of grid point r / 32, and that point writes its block back. -/
theorem cover13 (i : S4096x128.Idx) :
    ∃ t : Fin cfg0.N, (cfg0.win 13).flush t = true ∧ i ∈ ((cfg0.win 13).blk t).view.set := by
  have hN : cfg0.N = 128 := N_0
  have hi0 : (i 0).val < 4096 := (i 0).isLt
  have hi1 : (i 1).val < 128 := (i 1).isLt
  obtain ⟨t, ht⟩ : ∃ t : Fin cfg0.N, t.val = (i 0).val / 32 := ⟨⟨(i 0).val / 32, by omega⟩, rfl⟩
  obtain ⟨-, -, -, -, -, -, -, -, -, -, -, -, -, ⟨e0, e1⟩⟩ := idx_facts t
  refine ⟨t, flush0_13 t, ?_⟩
  rw [mem_blk13]
  intro a
  match a with
  | ⟨0, _⟩ =>
    show win0_13.index t (0 : Fin 2) * 32 ≤ (i 0).val ∧ (i 0).val < win0_13.index t (0 : Fin 2) * 32 + 32
    omega
  | ⟨1, _⟩ =>
    show win0_13.index t (1 : Fin 2) * 128 ≤ (i 1).val ∧ (i 1).val < win0_13.index t (1 : Fin 2) * 128 + 128
    omega

/-- THE ARRAY after the region. -/
theorem final13 (c : Dev nD) : (dats m 0 c).arrAt 13 cfg0.N = remap1Arr m c :=
  (dats m 0 c).arrAt_eq_of_cover 13 (remap1Arr m c) (fun t _ => flushed13_eq m c t) (cover13)

end Cert.KernelIdeal.Arrays

end
-- ==== Proof.KernelTail.lean ====
/-
  After the region: the two results, and the idealized kernel's run.

  The host lays the three [4096, 128] output arrays out as the two [4096, 256] results.  The density is repeated along a
  new last axis of size 2 and that [4096, 128, 2] array is read row-major as [4096, 256]: column j holds keypoint j / 2.
  The two gradient coordinates are joined along a new last axis, multiplied by the word 1 and read row-major likewise:
  column j holds coordinate j % 2 of keypoint j / 2.  With what the region leaves in the three arrays this makes the two
  results the specification's density and gradient arrays, and the frame run, re-posted, is the kernel's run at them.
-/
import proofs.«128031_j2284922601915_2_alg».proof.Proof.KernelArrays
import Idealize.ShloMosaic.Lib.StableHlo.Run

noncomputable section

open Idealize.ShloMosaic Idealize.ShloMosaic.TcCoe Idealize.SL.Sem Idealize.ShloMosaic.ValueIdx
open Idealize.ShloMosaic.Pipeline (Dat)
open Cert.MixtureDensity

namespace Cert.KernelIdeal.Tail

open Cert.KernelIdeal Cert.KernelIdeal.Gen Cert.KernelIdeal.Inputs Cert.KernelIdeal.Arrays

variable (m : (ℓ : Loc nD τ sig) → Buf (Elt Ideal) ℓ) (ρ : Dev nD → PrngReg)

/-! ## The layout of the results, at an index -/

/-- An array [4096, 128] repeated along a new last axis and read row-major as [4096, 256]: column j is keypoint j / 2. -/
theorem repeat_apply (A : S4096x128.Idx → EReal) (r : Fin 4096) (j : Fin 256) :
    shapeCast S4096x256 (broadcastInDim S4096x128x2 ![0, 1] bcast_S4096x128_S4096x128x2_0_1 A) shapeCasts_S4096x128x2_S4096x256 (ix2 r j)
      = A (ix2 r (keypointOf j)) := by
  have hj : j.val < 256 := j.isLt
  refine (shapeCast_apply _ shapeCasts_S4096x128x2_S4096x256 (ix2 r j)
    (ix3 r (keypointOf j) (⟨j.val % 2, Nat.mod_lt _ (by decide)⟩ : Fin 2)) ?_).trans ?_
  · rw [Shape.rowMajor_val_two, Shape.rowMajor_val_three]
    show (r.val * 128 + j.val / 2) * 2 + j.val % 2 = r.val * 256 + j.val
    omega
  · exact broadcastInDim_apply ![0, 1] bcast_S4096x128_S4096x128x2_0_1 A _ (ix2 r (keypointOf j)) (fun d => match d with
      | ⟨0, _⟩ => by show r.val = if (4096 : Nat) = 1 then 0 else r.val; rw [if_neg (by decide)]
      | ⟨1, _⟩ => by show j.val / 2 = if (128 : Nat) = 1 then 0 else j.val / 2; rw [if_neg (by decide)])

/-- An array [4096, 128] given a trailing unit axis, at (r, k, 0). -/
theorem unitLast_apply (A : S4096x128.Idx → EReal) (r : Fin 4096) (k : Fin 128) (z : Fin 1) :
    broadcastInDim S4096x128x1 ![0, 1] bcast_S4096x128_S4096x128x1_0_1 A (ix3 r k z) = A (ix2 r k) :=
  broadcastInDim_apply ![0, 1] bcast_S4096x128_S4096x128x1_0_1 A _ (ix2 r k) (fun d => match d with
    | ⟨0, _⟩ => by show r.val = if (4096 : Nat) = 1 then 0 else r.val; rw [if_neg (by decide)]
    | ⟨1, _⟩ => by show k.val = if (128 : Nat) = 1 then 0 else k.val; rw [if_neg (by decide)])

/-- Two arrays [4096, 128] joined along a new last axis, times the word 1, read row-major as [4096, 256]: column j is
    the first array at keypoint j / 2 when j is even and the second when j is odd. -/
theorem interleave_apply (A B : S4096x128.Idx → EReal) (r : Fin 4096) (j : Fin 256) :
    shapeCast S4096x256
        (mulf (F := Ideal) (broadcastInDim S4096x128x2 ![] bcast_S_S4096x128x2 (constant (F := Ideal) S_ .f32 0x3F800000#32))
          (concatenate S4096x128x2 2
            [⟨S4096x128x1, broadcastInDim S4096x128x1 ![0, 1] bcast_S4096x128_S4096x128x1_0_1 A⟩,
             ⟨S4096x128x1, broadcastInDim S4096x128x1 ![0, 1] bcast_S4096x128_S4096x128x1_0_1 B⟩]
            concatenates_S4096x128x1_S4096x128x1_S4096x128x2_d2))
        shapeCasts_S4096x128x2_S4096x256 (ix2 r j)
      = one32 * (if j.val % 2 = 0 then A (ix2 r (keypointOf j)) else B (ix2 r (keypointOf j))) := by
  have hj : j.val < 256 := j.isLt
  refine (shapeCast_apply _ shapeCasts_S4096x128x2_S4096x256 (ix2 r j)
    (ix3 r (keypointOf j) (⟨j.val % 2, Nat.mod_lt _ (by decide)⟩ : Fin 2)) ?_).trans ?_
  · rw [Shape.rowMajor_val_two, Shape.rowMajor_val_three]
    show (r.val * 128 + j.val / 2) * 2 + j.val % 2 = r.val * 256 + j.val
    omega
  · show Ideal.ofBits .f32 0x3F800000#32 * _ = _
    by_cases he : j.val % 2 = 0
    · rw [if_pos he]
      refine congrArg (one32 * ·) ?_
      refine (concatenate_pair_apply_left (t := S4096x128x2) (s₁ := S4096x128x1) (s₂ := S4096x128x1) (2 : Fin 3)
        (broadcastInDim S4096x128x1 ![0, 1] bcast_S4096x128_S4096x128x1_0_1 A)
        (broadcastInDim S4096x128x1 ![0, 1] bcast_S4096x128_S4096x128x1_0_1 B)
        concatenates_S4096x128x1_S4096x128x1_S4096x128x2_d2
        (ix3 r (keypointOf j) (⟨j.val % 2, Nat.mod_lt _ (by decide)⟩ : Fin 2)) rfl
        (ix3 r (keypointOf j) (0 : Fin 1)) (fun b => match b with
          | ⟨0, _⟩ => rfl
          | ⟨1, _⟩ => rfl
          | ⟨2, _⟩ => by show 0 = j.val % 2; omega)).trans ?_
      exact unitLast_apply A r (keypointOf j) 0
    · rw [if_neg he]
      refine congrArg (one32 * ·) ?_
      refine (concatenate_pair_apply_right (t := S4096x128x2) (s₁ := S4096x128x1) (s₂ := S4096x128x1) (2 : Fin 3)
        (broadcastInDim S4096x128x1 ![0, 1] bcast_S4096x128_S4096x128x1_0_1 A)
        (broadcastInDim S4096x128x1 ![0, 1] bcast_S4096x128_S4096x128x1_0_1 B)
        concatenates_S4096x128x1_S4096x128x1_S4096x128x2_d2
        (ix3 r (keypointOf j) (⟨j.val % 2, Nat.mod_lt _ (by decide)⟩ : Fin 2)) rfl rfl
        (ix3 r (keypointOf j) (0 : Fin 1)) (fun b hb => match b, hb with
          | ⟨0, _⟩, _ => rfl
          | ⟨1, _⟩, _ => rfl
          | ⟨2, _⟩, hb => absurd (Fin.ext rfl) hb)
        (by show 0 + 1 = j.val % 2; omega)).trans ?_
      exact unitLast_apply B r (keypointOf j) 0

/-! ## The two results after the host's last operations -/

/-- The first result is the specification's density array. -/
theorem result0_eq (c : Dev nD) :
    (Pipeline.afterTail₀ cfgs (dats m) 0 (V0 m) [hostOps1] c main_v24 : S4096x256.Idx → EReal)
      = densityOut (argZ m c) (argW m c) (argMu m c) (argCov m c) := by
  have e : (Pipeline.afterTail₀ cfgs (dats m) 0 (V0 m) [hostOps1] c main_v24 : S4096x256.Idx → EReal)
      = shapeCast S4096x256 (broadcastInDim S4096x128x2 ![0, 1] bcast_S4096x128_S4096x128x2_0_1 (densityArr m c))
          shapeCasts_S4096x128x2_S4096x256 := by
    unfold Pipeline.afterTail₀
    show StableHlo.after hostOps1 _ (Proc.devRef .tc main_v24) = _
    after_results
    rw [(Pipeline.withArrays_arr spec0 launch0.win.arr_inj c _ _ 11).trans (final11 m c)]
    rfl
  rw [e]
  funext i
  obtain ⟨r, j, rfl⟩ : ∃ (r : Fin 4096) (j : Fin 256), i = ix2 r j := ⟨i 0, i 1, eq_ix2 i⟩
  rw [repeat_apply]
  rfl

/-- The second result is the specification's gradient array. -/
theorem result1_eq (c : Dev nD) :
    (Pipeline.afterTail₀ cfgs (dats m) 0 (V0 m) [hostOps1] c main_v30 : S4096x256.Idx → EReal)
      = gradientOut (argZ m c) (argW m c) (argMu m c) (argCov m c) (argSc m c) := by
  have e : (Pipeline.afterTail₀ cfgs (dats m) 0 (V0 m) [hostOps1] c main_v30 : S4096x256.Idx → EReal)
      = shapeCast S4096x256
          (mulf (F := Ideal) (broadcastInDim S4096x128x2 ![] bcast_S_S4096x128x2 (constant (F := Ideal) S_ .f32 0x3F800000#32))
            (concatenate S4096x128x2 2
              [⟨S4096x128x1, broadcastInDim S4096x128x1 ![0, 1] bcast_S4096x128_S4096x128x1_0_1 (remap0Arr m c)⟩,
               ⟨S4096x128x1, broadcastInDim S4096x128x1 ![0, 1] bcast_S4096x128_S4096x128x1_0_1 (remap1Arr m c)⟩]
              concatenates_S4096x128x1_S4096x128x1_S4096x128x2_d2))
          shapeCasts_S4096x128x2_S4096x256 := by
    unfold Pipeline.afterTail₀
    show StableHlo.after hostOps1 _ (Proc.devRef .tc main_v30) = _
    after_results
    rw [(Pipeline.withArrays_arr spec0 launch0.win.arr_inj c _ _ 12).trans (final12 m c),
      (Pipeline.withArrays_arr spec0 launch0.win.arr_inj c _ _ 13).trans (final13 m c)]
    rfl
  rw [e]
  funext i
  obtain ⟨r, j, rfl⟩ : ∃ (r : Fin 4096) (j : Fin 256), i = ix2 r j := ⟨i 0, i 1, eq_ix2 i⟩
  rw [interleave_apply]
  rfl

/-! ## The run -/

/-- Every weakly fair execution of the idealized kernel terminates with the two results at the specification's
    density and gradient arrays of the arguments, and the arguments unchanged. -/
theorem run : θ_run defs (onTc (τ := τ) (main (F := Ideal))) ⟨m, fun _ => 0, ρ⟩ fun r => ∀ c : Dev nD,
      r.2.mem ((c.tc : Thread nD τ).loc main_v24) = densityOut (argZ m c) (argW m c) (argMu m c) (argCov m c)
      ∧ r.2.mem ((c.tc : Thread nD τ).loc main_v30) = gradientOut (argZ m c) (argW m c) (argMu m c) (argCov m c) (argSc m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v24 (Pipeline.mem_restRefs_of main_v24 (by decide) (by decide))).trans (result0_eq m c),
      ((h c).2 main_v30 (Pipeline.mem_restRefs_of main_v30 (by decide) (by decide))).trans (result1_eq m c),
      (((h c).2 main_arg0 (Pipeline.mem_restRefs_of main_arg0 (by decide) (by decide))).trans (W_main_arg0 m (dats m) c)),
      ((h c).1 2).trans ((((dats m) 0 c).arrAt_in 2 rfl _).trans ((A_eq m c 2).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Tail

end
-- ==== Proof.RefValue.lean ====
/-
  The reference program's two results, read index by index, are the mixture density and its remapped gradient as
  stated once over the extended reals.

  The program is a chain of elementwise operations, layout operations (slices, reshapes, broadcasts, one
  concatenation) and four sums. Each intermediate array is identified, at an index given by its coordinates
  (row r, keypoint k, component c, gradient coordinate e), with the quantity of the statement it computes: the
  determinant and the four entries of the inverse covariance, the displacement, the inverse applied to it, the
  weighted component density, the density and the two gradient sums, the rescaled gradient, its length, the
  magnitude, and the two results. A layout operation only moves an element, so reading through it is an equation
  between two indices, checked coordinate by coordinate by arithmetic on the coordinates; an elementwise operation
  over the extended reals is the extended reals' own operation by definition; a sum started from the zero word is the
  sum.
-/
import proofs.«128031_j2284922601915_2_alg».proof.Proof.ReadPatched
import proofs.«128031_j2284922601915_2_alg».proof.Proof.Spec

noncomputable section

open scoped BigOperators
open Idealize.ShloMosaic Idealize.ShloMosaic.ValueIdx
open Cert.ReferenceIdeal Cert.ReferenceIdeal.Read Cert.MixtureDensity

namespace Cert.ReferenceIdeal.RefValue

/-! ## Indices: coordinates of an index built from coordinates, and equality of indices coordinate by coordinate -/

theorem ix2_v0 {n0 n1 : Nat} (a : Fin n0) (b : Fin n1) : ((ix2 a b) 0).val = a.val := rfl
theorem ix2_v1 {n0 n1 : Nat} (a : Fin n0) (b : Fin n1) : ((ix2 a b) 1).val = b.val := rfl
theorem ix3_v0 {n0 n1 n2 : Nat} (a : Fin n0) (b : Fin n1) (c : Fin n2) : ((ix3 a b c) 0).val = a.val := rfl
theorem ix3_v1 {n0 n1 n2 : Nat} (a : Fin n0) (b : Fin n1) (c : Fin n2) : ((ix3 a b c) 1).val = b.val := rfl
theorem ix3_v2 {n0 n1 n2 : Nat} (a : Fin n0) (b : Fin n1) (c : Fin n2) : ((ix3 a b c) 2).val = c.val := rfl
theorem ix4_v0 {n0 n1 n2 n3 : Nat} (a : Fin n0) (b : Fin n1) (c : Fin n2) (d : Fin n3) : ((ix4 a b c d) 0).val = a.val := rfl
theorem ix4_v1 {n0 n1 n2 n3 : Nat} (a : Fin n0) (b : Fin n1) (c : Fin n2) (d : Fin n3) : ((ix4 a b c d) 1).val = b.val := rfl
theorem ix4_v2 {n0 n1 n2 n3 : Nat} (a : Fin n0) (b : Fin n1) (c : Fin n2) (d : Fin n3) : ((ix4 a b c d) 2).val = c.val := rfl
theorem ix4_v3 {n0 n1 n2 n3 : Nat} (a : Fin n0) (b : Fin n1) (c : Fin n2) (d : Fin n3) : ((ix4 a b c d) 3).val = d.val := rfl

/-- A rank-2 index with the coordinates of `ix2 a b` is `ix2 a b`. -/
theorem ix2_ext {n0 n1 : Nat} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1
/-- A rank-3 index with the coordinates of `ix3 a b c` is `ix3 a b c`. -/
theorem ix3_ext {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  funext d
  match d with
  | ⟨0, _⟩ => exact Fin.ext h0
  | ⟨1, _⟩ => exact Fin.ext h1
  | ⟨2, _⟩ => exact Fin.ext h2
/-- A rank-4 index with the coordinates of `ix4 a b c d` is `ix4 a b c d`. -/
theorem ix4_ext {n0 n1 n2 n3 : Nat} (j : (⟨4, ![n0, n1, n2, n3]⟩ : Shape).Idx) (a : Fin n0) (b : Fin n1) (c : Fin n2)
    (d : Fin n3) (h0 : (j 0).val = a.val) (h1 : (j 1).val = b.val) (h2 : (j 2).val = c.val) (h3 : (j 3).val = d.val) :
    j = ix4 a b c d := by
  funext e
  match e with
  | ⟨0, _⟩ => exact Fin.ext h0
  | ⟨1, _⟩ => exact Fin.ext h1
  | ⟨2, _⟩ => exact Fin.ext h2
  | ⟨3, _⟩ => exact Fin.ext h3

/-- One coordinate equation between two indices: compute both sides' coordinates, then linear arithmetic. -/
macro "coord_arith" : tactic =>
  `(tactic| ((try dsimp only) <;>
             (try simp only [ix2_v0, ix2_v1, ix3_v0, ix3_v1, ix3_v2, ix4_v0, ix4_v1, ix4_v2, ix4_v3]) <;> omega))

section
variable (z : (⟨S4096x128x2, .f32⟩ : BufTy).Contents (Elt Ideal)) (w : (⟨S128x64, .f32⟩ : BufTy).Contents (Elt Ideal))
  (mu : (⟨S128x64x2, .f32⟩ : BufTy).Contents (Elt Ideal)) (cov : (⟨S128x64x2x2, .f32⟩ : BufTy).Contents (Elt Ideal))
  (sc : (⟨S128x2, .f32⟩ : BufTy).Contents (Elt Ideal))

/-! ## The covariance's four entries: a unit slice of the last two axes, then the two unit axes dropped -/

theorem cov00_at (k : Fin 128) (c : Fin 64) :
    val_main_v1 (F := Ideal) cov (ix2 k c) = cov (ix4 k c (0 : Fin 2) (0 : Fin 2)) := by
  rw [val_main_v1_apply, val_main_v0_apply]
  refine congrArg cov ?_
  have hk := k.isLt; have hc := c.isLt
  refine ix4_ext _ _ _ _ _ ?_ ?_ ?_ ?_ <;> coord_arith

theorem cov01_at (k : Fin 128) (c : Fin 64) :
    val_main_v3 (F := Ideal) cov (ix2 k c) = cov (ix4 k c (0 : Fin 2) (1 : Fin 2)) := by
  rw [val_main_v3_apply, val_main_v2_apply]
  refine congrArg cov ?_
  have hk := k.isLt; have hc := c.isLt
  refine ix4_ext _ _ _ _ _ ?_ ?_ ?_ ?_ <;> coord_arith

theorem cov10_at (k : Fin 128) (c : Fin 64) :
    val_main_v5 (F := Ideal) cov (ix2 k c) = cov (ix4 k c (1 : Fin 2) (0 : Fin 2)) := by
  rw [val_main_v5_apply, val_main_v4_apply]
  refine congrArg cov ?_
  have hk := k.isLt; have hc := c.isLt
  refine ix4_ext _ _ _ _ _ ?_ ?_ ?_ ?_ <;> coord_arith

theorem cov11_at (k : Fin 128) (c : Fin 64) :
    val_main_v7 (F := Ideal) cov (ix2 k c) = cov (ix4 k c (1 : Fin 2) (1 : Fin 2)) := by
  rw [val_main_v7_apply, val_main_v6_apply]
  refine congrArg cov ?_
  have hk := k.isLt; have hc := c.isLt
  refine ix4_ext _ _ _ _ _ ?_ ?_ ?_ ?_ <;> coord_arith

/-! ## The determinant and the inverse's entries, per (keypoint, component) -/

theorem det_at (k : Fin 128) (c : Fin 64) : val_main_v10 (F := Ideal) cov (ix2 k c) = det cov k c := by
  rw [val_main_v10_apply, val_main_v8_apply, val_main_v9_apply, cov00_at, cov11_at, cov01_at, cov10_at]
  rfl

theorem inv00_at (k : Fin 128) (c : Fin 64) : val_main_v11 (F := Ideal) cov (ix2 k c) = inv00 cov k c := by
  rw [val_main_v11_apply, cov11_at, det_at]
  rfl

theorem inv01_at (k : Fin 128) (c : Fin 64) : val_main_v13 (F := Ideal) cov (ix2 k c) = inv01 cov k c := by
  rw [val_main_v13_apply, val_main_v12_apply, cov01_at, det_at]
  rfl

theorem inv10_at (k : Fin 128) (c : Fin 64) : val_main_v15 (F := Ideal) cov (ix2 k c) = inv10 cov k c := by
  rw [val_main_v15_apply, val_main_v14_apply, cov10_at, det_at]
  rfl

theorem inv11_at (k : Fin 128) (c : Fin 64) : val_main_v16 (F := Ideal) cov (ix2 k c) = inv11 cov k c := by
  rw [val_main_v16_apply, cov00_at, det_at]
  rfl

theorem logdet_at (k : Fin 128) (c : Fin 64) :
    val_main_v43 (F := Ideal) cov (ix2 k c) = Ideal.log (det cov k c) := by
  rw [val_main_v43_apply, det_at]
  rfl

/-! ## The displacement: the point and the mean broadcast to [row, keypoint, component, coordinate], subtracted, sliced -/

theorem disp0_at (r : Fin 4096) (k : Fin 128) (c : Fin 64) :
    val_main_v23 (F := Ideal) z mu (ix3 r k c) = disp0 z mu r k c := by
  have hr := r.isLt; have hk := k.isLt; have hc := c.isLt
  rw [val_main_v23_apply, val_main_v22_apply, val_main_v21_apply, val_main_v19_apply, val_main_v17_apply,
    val_main_v20_apply, val_main_v18_apply]
  have e1 : idx_main_v17 (idx_main_v19 (idx_main_v22 (idx_main_v23 (ix3 r k c)))) = ix3 r k (0 : Fin 2) := by
    refine ix3_ext _ _ _ _ ?_ ?_ ?_ <;> coord_arith
  have e2 : idx_main_v18 (idx_main_v20 (idx_main_v22 (idx_main_v23 (ix3 r k c)))) = ix3 k c (0 : Fin 2) := by
    refine ix3_ext _ _ _ _ ?_ ?_ ?_ <;> coord_arith
  rw [e1, e2]
  rfl

theorem disp1_at (r : Fin 4096) (k : Fin 128) (c : Fin 64) :
    val_main_v25 (F := Ideal) z mu (ix3 r k c) = disp1 z mu r k c := by
  have hr := r.isLt; have hk := k.isLt; have hc := c.isLt
  rw [val_main_v25_apply, val_main_v24_apply, val_main_v21_apply, val_main_v19_apply, val_main_v17_apply,
    val_main_v20_apply, val_main_v18_apply]
  have e1 : idx_main_v17 (idx_main_v19 (idx_main_v24 (idx_main_v25 (ix3 r k c)))) = ix3 r k (1 : Fin 2) := by
    refine ix3_ext _ _ _ _ ?_ ?_ ?_ <;> coord_arith
  have e2 : idx_main_v18 (idx_main_v20 (idx_main_v24 (idx_main_v25 (ix3 r k c)))) = ix3 k c (1 : Fin 2) := by
    refine ix3_ext _ _ _ _ ?_ ?_ ?_ <;> coord_arith
  rw [e1, e2]
  rfl

/-! ## The per-component arrays broadcast along the rows -/

theorem inv00_bc (r : Fin 4096) (k : Fin 128) (c : Fin 64) :
    val_main_v27 (F := Ideal) cov (ix3 r k c) = inv00 cov k c := by
  have hr := r.isLt; have hk := k.isLt; have hc := c.isLt
  rw [val_main_v27_apply, val_main_v26_apply]
  have e : idx_main_v26 (idx_main_v27 (ix3 r k c)) = ix2 k c := by
    refine ix2_ext _ _ _ ?_ ?_ <;> coord_arith
  rw [e, inv00_at]

theorem inv01_bc (r : Fin 4096) (k : Fin 128) (c : Fin 64) :
    val_main_v30 (F := Ideal) cov (ix3 r k c) = inv01 cov k c := by
  have hr := r.isLt; have hk := k.isLt; have hc := c.isLt
  rw [val_main_v30_apply, val_main_v29_apply]
  have e : idx_main_v29 (idx_main_v30 (ix3 r k c)) = ix2 k c := by
    refine ix2_ext _ _ _ ?_ ?_ <;> coord_arith
  rw [e, inv01_at]

theorem inv10_bc (r : Fin 4096) (k : Fin 128) (c : Fin 64) :
    val_main_v34 (F := Ideal) cov (ix3 r k c) = inv10 cov k c := by
  have hr := r.isLt; have hk := k.isLt; have hc := c.isLt
  rw [val_main_v34_apply, val_main_v33_apply]
  have e : idx_main_v33 (idx_main_v34 (ix3 r k c)) = ix2 k c := by
    refine ix2_ext _ _ _ ?_ ?_ <;> coord_arith
  rw [e, inv10_at]

theorem inv11_bc (r : Fin 4096) (k : Fin 128) (c : Fin 64) :
    val_main_v37 (F := Ideal) cov (ix3 r k c) = inv11 cov k c := by
  have hr := r.isLt; have hk := k.isLt; have hc := c.isLt
  rw [val_main_v37_apply, val_main_v36_apply]
  have e : idx_main_v36 (idx_main_v37 (ix3 r k c)) = ix2 k c := by
    refine ix2_ext _ _ _ ?_ ?_ <;> coord_arith
  rw [e, inv11_at]

theorem logdet_bc (r : Fin 4096) (k : Fin 128) (c : Fin 64) :
    val_main_v45 (F := Ideal) cov (ix3 r k c) = Ideal.log (det cov k c) := by
  have hr := r.isLt; have hk := k.isLt; have hc := c.isLt
  rw [val_main_v45_apply, val_main_v44_apply]
  have e : idx_main_v44 (idx_main_v45 (ix3 r k c)) = ix2 k c := by
    refine ix2_ext _ _ _ ?_ ?_ <;> coord_arith
  rw [e, logdet_at]

theorem weight_bc (r : Fin 4096) (k : Fin 128) (c : Fin 64) :
    val_main_v53 (F := Ideal) w (ix3 r k c) = w (ix2 k c) := by
  have hr := r.isLt; have hk := k.isLt; have hc := c.isLt
  rw [val_main_v53_apply, val_main_v51_apply]
  refine congrArg w ?_
  refine ix2_ext _ _ _ ?_ ?_ <;> coord_arith

/-! ## The inverse covariance applied to the displacement, and the weighted component density -/

theorem sol0_at (r : Fin 4096) (k : Fin 128) (c : Fin 64) :
    val_main_v32 (F := Ideal) z mu cov (ix3 r k c) = sol0 z mu cov r k c := by
  rw [val_main_v32_apply, val_main_v28_apply, val_main_v31_apply, inv00_bc, inv01_bc, disp0_at, disp1_at]
  rfl

theorem sol1_at (r : Fin 4096) (k : Fin 128) (c : Fin 64) :
    val_main_v39 (F := Ideal) z mu cov (ix3 r k c) = sol1 z mu cov r k c := by
  rw [val_main_v39_apply, val_main_v35_apply, val_main_v38_apply, inv10_bc, inv11_bc, disp0_at, disp1_at]
  rfl

theorem term_at (r : Fin 4096) (k : Fin 128) (c : Fin 64) :
    val_main_v54 (F := Ideal) z w mu cov (ix3 r k c) = term z w mu cov r k c := by
  rw [val_main_v54_apply, val_main_v52_apply, val_main_v50_apply, val_main_v48_apply, val_main_v46_apply,
    val_main_v42_apply, val_main_v40_apply, val_main_v41_apply, val_main_v49_apply, val_main_cst_0_apply,
    val_main_v47_apply, val_main_cst_apply, weight_bc, logdet_bc, disp0_at, disp1_at, sol0_at, sol1_at]
  rfl

/-! ## The three sums over the components: the density and the two gradient sums -/

theorem pdf_at (r : Fin 4096) (k : Fin 128) :
    val_main_v55 (F := Ideal) z w mu cov (ix2 r k) = pdf z w mu cov r k := by
  have hr := r.isLt; have hk := k.isLt
  unfold pdf
  rw [val_main_v55_apply, val_main_cst_1_apply]
  refine (zeroWord_add _).trans ?_
  refine Finset.sum_congr rfl fun c _ => ?_
  have hc := c.isLt
  have e : idx_main_v55 (ix2 r k) c = ix3 r k c := by
    refine ix3_ext _ _ _ _ ?_ ?_ ?_ <;> coord_arith
  rw [e, term_at]

theorem grad0_at (r : Fin 4096) (k : Fin 128) :
    val_main_v58 (F := Ideal) z w mu cov (ix2 r k) = grad0 z w mu cov r k := by
  have hr := r.isLt; have hk := k.isLt
  unfold grad0
  rw [val_main_v58_apply]
  show -(val_main_v57 (F := Ideal) z w mu cov (ix2 r k)) = _
  rw [val_main_v57_apply, val_main_cst_2_apply]
  refine congrArg (fun x : EReal => -x) ?_
  refine (zeroWord_add _).trans ?_
  refine Finset.sum_congr rfl fun c _ => ?_
  have hc := c.isLt
  have e : idx_main_v57 (ix2 r k) c = ix3 r k c := by
    refine ix3_ext _ _ _ _ ?_ ?_ ?_ <;> coord_arith
  rw [e, val_main_v56_apply, term_at, sol0_at]
  rfl

theorem grad1_at (r : Fin 4096) (k : Fin 128) :
    val_main_v61 (F := Ideal) z w mu cov (ix2 r k) = grad1 z w mu cov r k := by
  have hr := r.isLt; have hk := k.isLt
  unfold grad1
  rw [val_main_v61_apply]
  show -(val_main_v60 (F := Ideal) z w mu cov (ix2 r k)) = _
  rw [val_main_v60_apply, val_main_cst_3_apply]
  refine congrArg (fun x : EReal => -x) ?_
  refine (zeroWord_add _).trans ?_
  refine Finset.sum_congr rfl fun c _ => ?_
  have hc := c.isLt
  have e : idx_main_v60 (ix2 r k) c = ix3 r k c := by
    refine ix3_ext _ _ _ _ ?_ ?_ ?_ <;> coord_arith
  rw [e, val_main_v59_apply, term_at, sol1_at]
  rfl

/-! ## The gradient as one array [row, keypoint, coordinate]: the two negated sums joined along a new last axis -/

theorem gradcat0_at (r : Fin 4096) (k : Fin 128) :
    val_main_v64 (F := Ideal) z w mu cov (ix3 r k (0 : Fin 2)) = grad0 z w mu cov r k := by
  have hr := r.isLt; have hk := k.isLt
  unfold val_main_v64
  refine (concatenate_pair_apply_left (t := S4096x128x2) (s₁ := S4096x128x1) (s₂ := S4096x128x1) (2 : Fin 3) _ _ _ (ix3 r k (0 : Fin 2)) rfl (ix3 r k (0 : Fin 1)) ?_).trans ?_
  · intro b
    match b with
    | ⟨0, _⟩ => rfl
    | ⟨1, _⟩ => rfl
    | ⟨2, _⟩ => rfl
  · rw [val_main_v62_apply]
    have e : idx_main_v62 (ix3 r k (0 : Fin 1)) = ix2 r k := by
      refine ix2_ext _ _ _ ?_ ?_ <;> coord_arith
    rw [e, grad0_at]

theorem gradcat1_at (r : Fin 4096) (k : Fin 128) :
    val_main_v64 (F := Ideal) z w mu cov (ix3 r k (1 : Fin 2)) = grad1 z w mu cov r k := by
  have hr := r.isLt; have hk := k.isLt
  unfold val_main_v64
  refine (concatenate_pair_apply_right (t := S4096x128x2) (s₁ := S4096x128x1) (s₂ := S4096x128x1) (2 : Fin 3) _ _ _ (ix3 r k (1 : Fin 2)) rfl rfl (ix3 r k (0 : Fin 1)) ?_ ?_).trans ?_
  · intro b hb
    match b, hb with
    | ⟨0, _⟩, _ => rfl
    | ⟨1, _⟩, _ => rfl
    | ⟨2, _⟩, hb => exact absurd rfl hb
  · rfl
  · rw [val_main_v63_apply]
    have e : idx_main_v63 (ix3 r k (0 : Fin 1)) = ix2 r k := by
      refine ix2_ext _ _ _ ?_ ?_ <;> coord_arith
    rw [e, grad1_at]

/-! ## The rescaled gradient, its length, the magnitude and the remapped gradient -/

theorem scale_bc (r : Fin 4096) (k : Fin 128) (e : Fin 2) :
    val_main_v78 (F := Ideal) sc (ix3 r k e) = sc (ix2 k e) := by
  have hr := r.isLt; have hk := k.isLt; have he := e.isLt
  rw [val_main_v78_apply, val_main_v77_apply]
  refine congrArg sc ?_
  refine ix2_ext _ _ _ ?_ ?_ <;> coord_arith

theorem scaled0_at (r : Fin 4096) (k : Fin 128) :
    val_main_v79 (F := Ideal) z w mu cov sc (ix3 r k (0 : Fin 2)) = scaled0 z w mu cov sc r k := by
  rw [val_main_v79_apply, gradcat0_at, scale_bc]
  rfl

theorem scaled1_at (r : Fin 4096) (k : Fin 128) :
    val_main_v79 (F := Ideal) z w mu cov sc (ix3 r k (1 : Fin 2)) = scaled1 z w mu cov sc r k := by
  rw [val_main_v79_apply, gradcat1_at, scale_bc]
  rfl

/-- The sum of the two squares: a two-term sum started from the zero word. -/
theorem sumsq_at (r : Fin 4096) (k : Fin 128) :
    val_main_call0_v1 (F := Ideal) z w mu cov sc (ix2 r k)
      = scaled0 z w mu cov sc r k * scaled0 z w mu cov sc r k
        + scaled1 z w mu cov sc r k * scaled1 z w mu cov sc r k := by
  have hr := r.isLt; have hk := k.isLt
  rw [val_main_call0_v1_apply, val_main_call0_cst_apply]
  refine (zeroWord_add _).trans ?_
  rw [Fin.sum_univ_two]
  have e0 : idx_main_call0_v1 (ix2 r k) (0 : Fin 2) = ix3 r k (0 : Fin 2) := by
    refine ix3_ext _ _ _ _ ?_ ?_ ?_ <;> coord_arith
  have e1 : idx_main_call0_v1 (ix2 r k) (1 : Fin 2) = ix3 r k (1 : Fin 2) := by
    refine ix3_ext _ _ _ _ ?_ ?_ ?_ <;> coord_arith
  rw [e0, e1, val_main_call0_v0_apply, val_main_call0_v0_apply, scaled0_at, scaled1_at]
  rfl

theorem len_at (r : Fin 4096) (k : Fin 128) :
    val_main_v80 (F := Ideal) z w mu cov sc (ix3 r k (0 : Fin 1)) = len z w mu cov sc r k := by
  have hr := r.isLt; have hk := k.isLt
  rw [val_main_v80_apply, val_main_call0_v2_apply]
  have e : idx_main_call0_v2 (ix3 r k (0 : Fin 1)) = ix2 r k := by
    refine ix2_ext _ _ _ ?_ ?_ <;> coord_arith
  rw [e, sumsq_at]
  rfl

theorem mag_at (r : Fin 4096) (k : Fin 128) :
    val_main_v86 (F := Ideal) z w mu cov sc (ix3 r k (0 : Fin 1)) = mag z w mu cov sc r k := by
  rw [val_main_v86_apply, val_main_v85_apply, val_main_v83_apply, val_main_v81_apply, val_main_v82_apply,
    val_main_cst_8_apply, val_main_v84_apply, val_main_cst_9_apply, len_at]
  rfl

theorem remap0_at (r : Fin 4096) (k : Fin 128) :
    val_main_v90 (F := Ideal) z w mu cov sc (ix3 r k (0 : Fin 2)) = remap0 z w mu cov sc r k := by
  have hr := r.isLt; have hk := k.isLt
  rw [val_main_v90_apply, val_main_v88_apply, val_main_v87_apply, val_main_v89_apply, scaled0_at]
  have e1 : idx_main_v87 (ix3 r k (0 : Fin 2)) = ix3 r k (0 : Fin 1) := by
    refine ix3_ext _ _ _ _ ?_ ?_ ?_ <;> coord_arith
  have e2 : idx_main_v89 (ix3 r k (0 : Fin 2)) = ix3 r k (0 : Fin 1) := by
    refine ix3_ext _ _ _ _ ?_ ?_ ?_ <;> coord_arith
  rw [e1, e2, len_at, mag_at]
  rfl

theorem remap1_at (r : Fin 4096) (k : Fin 128) :
    val_main_v90 (F := Ideal) z w mu cov sc (ix3 r k (1 : Fin 2)) = remap1 z w mu cov sc r k := by
  have hr := r.isLt; have hk := k.isLt
  rw [val_main_v90_apply, val_main_v88_apply, val_main_v87_apply, val_main_v89_apply, scaled1_at]
  have e1 : idx_main_v87 (ix3 r k (1 : Fin 2)) = ix3 r k (0 : Fin 1) := by
    refine ix3_ext _ _ _ _ ?_ ?_ ?_ <;> coord_arith
  have e2 : idx_main_v89 (ix3 r k (1 : Fin 2)) = ix3 r k (0 : Fin 1) := by
    refine ix3_ext _ _ _ _ ?_ ?_ ?_ <;> coord_arith
  rw [e1, e2, len_at, mag_at]
  rfl

/-! ## The two results: each column j belongs to keypoint j / 2, coordinate j % 2 -/

/-- The word the reference spells both ones of `1 / (1 + exp (−x))` with is the number one. -/
theorem oneWord : Ideal.ofBits .f32 0x3F800000#32 = 1 := by
  simp [Ideal.ofBits, Ideal.ieee]
  norm_cast
  norm_num

theorem density_at (r : Fin 4096) (j : Fin 256) :
    val_main_v76 (F := Ideal) z w mu cov (ix2 r j) = densityAt z w mu cov r j := by
  have hr := r.isLt; have hj := j.isLt
  rw [val_main_v76_apply, val_main_v75_apply, val_main_cst_7_apply, val_main_v74_apply, val_main_v73_apply,
    val_main_cst_6_apply, val_main_v72_apply, val_main_v71_apply, val_main_v70_apply, val_main_v69_apply,
    val_main_cst_5_apply, val_main_v68_apply, val_main_v67_apply, val_main_cst_4_apply, val_main_v66_apply,
    val_main_v65_apply]
  have e : idx_main_v65 (idx_main_v66 (ix2 r j)) = ix2 r (keypointOf j) := by
    refine ix2_ext _ _ _ ?_ ?_
    · show (r.val * 256 + j.val) / 256 = r.val; omega
    · show (r.val * 256 + j.val) / 2 % 128 = j.val / 2; omega
  rw [e, pdf_at]
  show Ideal.div (Ideal.ofBits .f32 0x3F800000#32) (Ideal.ofBits .f32 0x3F800000#32
      + Ideal.exp (-(Ideal.div (pdf z w mu cov r (keypointOf j) + negHalf) half)))
    = Ideal.logistic (Ideal.div (pdf z w mu cov r (keypointOf j) + negHalf) half)
  rw [oneWord]
  rfl

theorem gradient_at (r : Fin 4096) (j : Fin 256) :
    val_main_v93 (F := Ideal) z w mu cov sc (ix2 r j) = gradientAt z w mu cov sc r j := by
  have hr := r.isLt; have hj := j.isLt
  rw [val_main_v93_apply, val_main_v92_apply, val_main_cst_10_apply, val_main_v91_apply]
  unfold gradientAt
  by_cases h : j.val % 2 = 0
  · have e : idx_main_v91 (ix2 r j) = ix3 r (keypointOf j) (0 : Fin 2) := by
      refine ix3_ext _ _ _ _ ?_ ?_ ?_
      · show (r.val * 256 + j.val) / 256 = r.val; omega
      · show (r.val * 256 + j.val) / 2 % 128 = j.val / 2; omega
      · show (r.val * 256 + j.val) % 2 = 0; omega
    rw [e, remap0_at, if_pos h]
    rfl
  · have e : idx_main_v91 (ix2 r j) = ix3 r (keypointOf j) (1 : Fin 2) := by
      refine ix3_ext _ _ _ _ ?_ ?_ ?_
      · show (r.val * 256 + j.val) / 256 = r.val; omega
      · show (r.val * 256 + j.val) / 2 % 128 = j.val / 2; omega
      · show (r.val * 256 + j.val) % 2 = 1; omega
    rw [e, remap1_at, if_neg h]
    rfl

/-- The reference's first result is the squashed density, as an array f32[4096, 256]. -/
theorem density_eq : val_main_v76 (F := Ideal) z w mu cov = densityOut z w mu cov := by
  funext i
  obtain ⟨r, j, rfl⟩ : ∃ (r : Fin 4096) (j : Fin 256), i = ix2 r j := ⟨i 0, i 1, eq_ix2 i⟩
  exact density_at z w mu cov r j

/-- The reference's second result is the remapped gradient, as an array f32[4096, 256]. -/
theorem gradient_eq : val_main_v93 (F := Ideal) z w mu cov sc = gradientOut z w mu cov sc := by
  funext i
  obtain ⟨r, j, rfl⟩ : ∃ (r : Fin 4096) (j : Fin 256), i = ix2 r j := ⟨i 0, i 1, eq_ix2 i⟩
  exact gradient_at z w mu cov sc r j

end

end Cert.ReferenceIdeal.RefValue

end
-- ==== Proof.lean ====
/-
  A mixture of 64 planar Gaussians per keypoint: its density and the gradient of the density in the point, the gradient
  rescaled per coordinate and remapped by its length, the density squashed by the logistic function — computed by a
  kernel over blocks of 32 batch rows and by a plain array program over the whole batch.

  Over the extended reals the two programs are one function of the five argument arrays (Proof/Spec.lean states it index by
  index).  They differ only in spelling: the kernel works on coordinate planes the host splits off beforehand and on blocks
  of rows, negates by subtracting from the zero word and takes the logistic function as one operation; the array program
  starts each of its sums from the zero word, negates directly and spells the logistic function as 1 / (1 + exp(−x)).
  The laws that join them — 0 − x = −x, 0 + s = s, and the logistic function's definition — hold at every extended real,
  so nothing here uses that the inputs are finite: the precondition is never opened.

  The kernel's side: what the body stores at one entry of a block (Proof/KernelPayload.lean, Proof/KernelEntries.lean), the
  blocks it loads as entries of the argument arrays (Proof/KernelInputs.lean), the three output arrays after all 128 grid
  points (Proof/KernelArrays.lean) and the host's final layout of them as the two results (Proof/KernelTail.lean).  The array
  program's side: its two results read index by index down to the same function (Proof/RefValue.lean).  Each program runs,
  faults nowhere and leaves its arguments unchanged: the three frames.  No operation was rewritten when the kernel was
  idealized, so there is nothing to preserve.
-/
import proofs.«128031_j2284922601915_2_alg».proof.Defs
import proofs.«128031_j2284922601915_2_alg».proof.Proof.Gen.Kernel
import proofs.«128031_j2284922601915_2_alg».proof.Proof.Gen.Kernel.Skeleton
import proofs.«128031_j2284922601915_2_alg».proof.Proof.Gen.Kernel.Launch
import proofs.«128031_j2284922601915_2_alg».proof.Proof.Gen.Kernel.Points
import proofs.«128031_j2284922601915_2_alg».proof.Proof.Gen.Kernel.Frame
import proofs.«128031_j2284922601915_2_alg».proof.Proof.Gen.KernelIdeal
import proofs.«128031_j2284922601915_2_alg».proof.Proof.Gen.KernelIdeal.Skeleton
import proofs.«128031_j2284922601915_2_alg».proof.Proof.Gen.KernelIdeal.Launch
import proofs.«128031_j2284922601915_2_alg».proof.Proof.Gen.KernelIdeal.Points
import proofs.«128031_j2284922601915_2_alg».proof.Proof.Gen.KernelIdeal.Frame
import proofs.«128031_j2284922601915_2_alg».proof.Proof.Gen.ReferenceIdeal
import proofs.«128031_j2284922601915_2_alg».proof.Proof.Gen.Pre_finite_inputs
import proofs.«128031_j2284922601915_2_alg».proof.Proof.RunPatched
import proofs.«128031_j2284922601915_2_alg».proof.Proof.ReadPatched
import proofs.«128031_j2284922601915_2_alg».proof.Proof.KernelTail
import proofs.«128031_j2284922601915_2_alg».proof.Proof.RefValue
import Idealize.ShloMosaic.Adequacy
import Idealize.ShloMosaic.Init

noncomputable section

namespace Cert.Proof

open Idealize.ShloMosaic Idealize.ShloMosaic.TcCoe Idealize.SL.Sem
open Cert.MixtureDensity

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the array program: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Run from memories that agree on the five arguments, both programs end with the two results at the mixture's
    squashed density and remapped gradient of those arguments, as extended reals, entry by entry. -/
theorem algebraic : Cert.algebraic_KernelIdeal_ReferenceIdeal := by
  intro m ρ m' ρ' _ hagree
  refine ⟨fun c => densityOut (Cert.KernelIdeal.Arrays.argZ m c) (Cert.KernelIdeal.Arrays.argW m c)
      (Cert.KernelIdeal.Arrays.argMu m c) (Cert.KernelIdeal.Arrays.argCov m c),
    fun c => gradientOut (Cert.KernelIdeal.Arrays.argZ m c) (Cert.KernelIdeal.Arrays.argW m c)
      (Cert.KernelIdeal.Arrays.argMu m c) (Cert.KernelIdeal.Arrays.argCov m c) (Cert.KernelIdeal.Arrays.argSc m c),
    Cert.KernelIdeal.Tail.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v76_eq, Cert.ReferenceIdeal.RefValue.density_eq,
      (hagree c).1, (hagree c).2.1, (hagree c).2.2.1, (hagree c).2.2.2.1]
  · rw [Cert.ReferenceIdeal.Read.val_main_v93_eq, Cert.ReferenceIdeal.RefValue.gradient_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
